-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S50000x32 : Shape := ⟨2, ![50000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S128x32 .f32) (main_arg12 : FVec F S32 .f32) (main_arg13 : FVec F S32x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x32 .f32 := Host.absf main_arg11
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_v63 main_v67

def fn_part2 {F : FTy → Type} [FloatOps F] (main_arg7 : FVec F S64 .f32) (main_arg8 : FVec F S64x64 .f32) (main_arg9 : FVec F S64x128 .f32) (main_arg10 : FVec F S128 .f32) (main_arg11 : FVec F S128x32 .f32) (main_arg12 : FVec F S32 .f32) (main_arg13 : FVec F S32x1 .f32) (main_arg14 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S64 .f32) (main_arg5 : FVec F S64x64 .f32) (main_arg6 : FVec F S64x64 .f32) (main_arg7 : FVec F S64 .f32) (main_arg8 : FVec F S64x64 .f32) (main_arg9 : FVec F S64x128 .f32) (main_arg10 : FVec F S128 .f32) (main_arg11 : FVec F S128x32 .f32) (main_arg12 : FVec F S32 .f32) (main_arg13 : FVec F S32x1 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x32 .f32) (main_arg1 : FVec F S50000x32 .f32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x128 .f32) (main_arg10 : FVec F S128 .f32) (main_arg11 : FVec F S128x32 .f32) (main_arg12 : FVec F S32 .f32) (main_arg13 : FVec F S32x1 .f32) (main_arg14 : FVec F S1 .f32) (main_arg15 : IVec S100000 32) (main_arg16 : IVec S2x1600000 32) (main_arg17 : IVec S100000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x32 : Shape := ⟨2, ![100000, 32]⟩
abbrev S50000x32 : Shape := ⟨2, ![50000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S2048x64 : Shape := ⟨2, ![2048, 64]⟩
abbrev S1x128 : Shape := ⟨2, ![1, 128]⟩
abbrev S1x32 : Shape := ⟨2, ![1, 32]⟩
abbrev S1x1 : Shape := ⟨2, ![1, 1]⟩
abbrev S2048x1 : Shape := ⟨2, ![2048, 1]⟩
abbrev S2048x128 : Shape := ⟨2, ![2048, 128]⟩
abbrev S2048x32 : Shape := ⟨2, ![2048, 32]⟩

abbrev nBuf : Space → Nat
  | .hbm => 70
  | .vmem => 27
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S100000, .i32⟩
  | .hbm, ⟨16, _⟩ => ⟨S2x1600000, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x32, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S_, .f32⟩
  | .hbm, ⟨63, _⟩ => ⟨S2048x64, .f32⟩
  | .hbm, ⟨64, _⟩ => ⟨S100000x1, .i32⟩
  | .hbm, ⟨65, _⟩ => ⟨S2048x64, .f32⟩
  | .hbm, ⟨66, _⟩ => ⟨S1x128, .f32⟩
  | .hbm, ⟨67, _⟩ => ⟨S1x32, .f32⟩
  | .hbm, ⟨68, _⟩ => ⟨S1x1, .f32⟩
  | .hbm, ⟨69, _⟩ => ⟨S2048x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S2048x64, .f32⟩
  | .local _ .vmem, ⟨20, _⟩ => ⟨S64x128, .f32⟩
  | .local _ .vmem, ⟨21, _⟩ => ⟨S1x128, .f32⟩
  | .local _ .vmem, ⟨22, _⟩ => ⟨S128x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S2048x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x32_S100000x32_S100000x64_d1 : Shape.Concatenates [S100000x32, S100000x32] S100000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S2048x64 : S_.BroadcastsInDim S2048x64 (![] : Fin 0 → Fin S2048x64.rank)
  shapeCasts_S128_S1x128 : S128.ShapeCasts S1x128
  shapeCasts_S32_S1x32 : S32.ShapeCasts S1x32
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S50000x32_S100000x1_S100000x32_1_0_n_n_0_1_132_wf : GatherDims.WF S50000x32 S100000x1 S100000x32 [1] [0] [] [0] [] 1 ![1, 32]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S2048x64_S100000x1_S100000x64_1_0_0_1_wf : ScatterDims.WF S2048x64 S100000x1 S100000x64 [1] [0] [0] 1
  dot_S2048x64_S64x128_S2048x128_1_0_0_1_n_n_wf : DotDims.WF S2048x64 S64x128 S2048x128 [1] [0] [0] [1] [] []
  dot_S2048x128_S128x32_S2048x32_1_0_0_1_n_n_wf : DotDims.WF S2048x128 S128x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S2048x64.size a
  hwx2_0 : ∀ i : grid2.Coords, EltTy.bits .f32 = 32 ∨ (Rect.block (s := S2048x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S2048x1.size a
  hwx2_7 : ∀ i : grid2.Coords, EltTy.bits .f32 = 32 ∨ (Rect.block (s := S2048x1) S2048x1.size (cc2_transform_7 i) (hinb2_7 i)).WholeWords (EltTy.packing .f32)

variable [Facts₀]

def gather_S50000x32_S100000x1_S100000x32_1_0_n_n_0_1_132 : GatherDims S50000x32 S100000x1 S100000x32 where
  offsetDims := [1]
  collapsedSliceDims := [0]
  operandBatchingDims := []
  startIndicesBatchingDims := []
  startIndexMap := [0]
  indexVectorDim := 1
  sliceSizes := ![1, 32]
  wf := gather_S50000x32_S100000x1_S100000x32_1_0_n_n_0_1_132_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v21) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S2048x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S2048x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x32 : Shape := ⟨2, ![100000, 32]⟩
abbrev S50000x32 : Shape := ⟨2, ![50000, 32]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S2048x64 : Shape := ⟨2, ![2048, 64]⟩
abbrev S2048x128 : Shape := ⟨2, ![2048, 128]⟩
abbrev S1x128 : Shape := ⟨2, ![1, 128]⟩
abbrev S2048x32 : Shape := ⟨2, ![2048, 32]⟩
abbrev S1x32 : Shape := ⟨2, ![1, 32]⟩
abbrev S2048x1 : Shape := ⟨2, ![2048, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S50000x32, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S100000, .i32⟩
  | .hbm, ⟨16, _⟩ => ⟨S2x1600000, .i32⟩
  | .hbm, ⟨17, _⟩ => ⟨S100000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x32, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .i1⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .i1⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S2048x64, .f32⟩
  | .hbm, ⟨87, _⟩ => ⟨S100000x1, .i32⟩
  | .hbm, ⟨88, _⟩ => ⟨S2048x64, .f32⟩
  | .hbm, ⟨89, _⟩ => ⟨S_, .f32⟩
  | .hbm, ⟨90, _⟩ => ⟨S2048x64, .f32⟩
  | .hbm, ⟨91, _⟩ => ⟨S2048x64, .i1⟩
  | .hbm, ⟨92, _⟩ => ⟨S_, .f32⟩
  | .hbm, ⟨93, _⟩ => ⟨S2048x64, .f32⟩
  | .hbm, ⟨94, _⟩ => ⟨S2048x64, .f32⟩
  | .hbm, ⟨95, _⟩ => ⟨S2048x64, .f32⟩
  | .hbm, ⟨96, _⟩ => ⟨S2048x128, .f32⟩
  | .hbm, ⟨97, _⟩ => ⟨S1x128, .f32⟩
  | .hbm, ⟨98, _⟩ => ⟨S2048x128, .f32⟩
  | .hbm, ⟨99, _⟩ => ⟨S2048x128, .f32⟩
  | .hbm, ⟨100, _⟩ => ⟨S_, .f32⟩
  | .hbm, ⟨101, _⟩ => ⟨S2048x128, .f32⟩
  | .hbm, ⟨102, _⟩ => ⟨S2048x128, .f32⟩
  | .hbm, ⟨103, _⟩ => ⟨S2048x32, .f32⟩
  | .hbm, ⟨104, _⟩ => ⟨S1x32, .f32⟩
  | .hbm, ⟨105, _⟩ => ⟨S2048x32, .f32⟩
  | .hbm, ⟨106, _⟩ => ⟨S2048x32, .f32⟩
  | .hbm, ⟨107, _⟩ => ⟨S_, .f32⟩
  | .hbm, ⟨108, _⟩ => ⟨S2048x32, .f32⟩
  | .hbm, ⟨109, _⟩ => ⟨S2048x32, .f32⟩
  | .hbm, ⟨110, _⟩ => ⟨S2048x1, .f32⟩
  | .hbm, ⟨111, _⟩ => ⟨S1x1, .f32⟩
  | .hbm, ⟨112, _⟩ => ⟨S2048x1, .f32⟩
  | .hbm, ⟨113, _⟩ => ⟨S2048x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call4_cst : Ref sig .tc := ⟨.hbm, 107, rfl⟩
abbrev main_call4_v0 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x32_S100000x32_S100000x64_d1 : Shape.Concatenates [S100000x32, S100000x32] S100000x64 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S50000x32_S100000x1_S100000x32_1_0_n_n_0_1_132_wf : GatherDims.WF S50000x32 S100000x1 S100000x32 [1] [0] [] [0] [] 1 ![1, 32]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  dot_S2048x64_S64x128_S2048x128_1_0_0_1_n_n_wf : DotDims.WF S2048x64 S64x128 S2048x128 [1] [0] [0] [1] [] []
  dot_S2048x128_S128x32_S2048x32_1_0_0_1_n_n_wf : DotDims.WF S2048x128 S128x32 S2048x32 [1] [0] [0] [1] [] []
  dot_S2048x32_S32x1_S2048x1_1_0_0_1_n_n_wf : DotDims.WF S2048x32 S32x1 S2048x1 [1] [0] [0] [1] [] []

variable [Facts₀]

def gather_S50000x32_S100000x1_S100000x32_1_0_n_n_0_1_132 : GatherDims S50000x32 S100000x1 S100000x32 where
  offsetDims := [1]
  collapsedSliceDims := [0]
  operandBatchingDims := []
  startIndicesBatchingDims := []
  startIndexMap := [0]
  indexVectorDim := 1
  sliceSizes := ![1, 32]
  wf := gather_S50000x32_S100000x1_S100000x32_1_0_n_n_0_1_132_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Layers.lean ====
/-
  The dense layers of a two-layer graph network with a pooled read-out, over the extended reals.
  A layer's update of a node is  lrelu (agg · Wl + h · Ws + b)  — two matrix products, a bias row, and the
  leaky rectifier whose slope is the binary value nearest one tenth —; the second layer's update is followed by a
  projection  · Wp ; the pooled features go through  lrelu , two rectified affine maps and one affine map.
  Every entry of a result depends on ONE row of the node features, so the same formula describes a block of rows
  and the whole array. Both a matrix unit's product into a zero accumulator and a host contraction, for the
  dimension numbers of a plain matrix product, are the sum  Σ_k x (r, k) · w (k, q) ; a row vector stretched over
  the rows, in either spelling, is read at its column.
-/
import proofs.«134033_j25125558682224_1_alg».proof.Proof.LibMatProd
import Idealize.ShloMosaic.PureOps.Ideal.Laws
import Idealize.ShloMosaic.Lib.Pipeline.Value
import Idealize.ShloMosaic.Lib.ValueIdx

noncomputable section

namespace Cert.Gcn.Layer

open Idealize.ShloMosaic Idealize.ShloMosaic.ValueIdx Cert.Gcn.Dense

/-- An `M × N` array of extended reals. -/
abbrev Mat (M N : Nat) : Type := (⟨2, ![M, N]⟩ : Shape).Idx → EReal
/-- A vector of `N` extended reals. -/
abbrev Row (N : Nat) : Type := (⟨1, ![N]⟩ : Shape).Idx → EReal

/-- The leaky rectifier: `z` where `z ≥ 0`, else the slope (the binary value nearest 0.1) times `z`. -/
def lrelu (z : EReal) : EReal :=
  Scalar.select (Ideal.cmp .oge z (Ideal.ofBits .f32 0x00000000#32)) z (Ideal.ofBits .f32 0x3DCCCCCD#32 * z)

/-- The rectifier `max z 0`. -/
def relu (z : EReal) : EReal := max z (Ideal.ofBits .f32 0x00000000#32)

/-- An affine map on rows: `x · w + b`. -/
def lin {M K N : Nat} (x : Mat M K) (w : Mat K N) (b : Row N) : Mat M N :=
  fun i => prod x w i + b (ix1 (i 1))

/-- One layer's update: `lrelu (agg · wl + h · ws + b)`. -/
def upd {M K N : Nat} (agg h : Mat M K) (wl ws : Mat K N) (b : Row N) : Mat M N :=
  fun i => lrelu ((prod agg wl i + prod h ws i) + b (ix1 (i 1)))

/-- The read-out on pooled features: `lrelu`, two rectified affine maps, one affine map. -/
def readout {G A B C D : Nat} (g : Mat G A) (w0 : Mat A B) (b0 : Row B) (w1 : Mat B C) (b1 : Row C)
    (w2 : Mat C D) (b2 : Row D) : Mat G D :=
  lin (fun i => relu (lin (fun i => relu (lin (fun i => lrelu (g i)) w0 b0 i)) w1 b1 i)) w2 b2

/-! ## A contraction with a plain matrix product's dimension numbers -/

/-- For the dimension numbers of a plain matrix product the sum over the contraction's index set is `prod`. -/
theorem sum_plain {M K N : Nat} (D : DotDims ⟨2, ![M, K]⟩ ⟨2, ![K, N]⟩ ⟨2, ![M, N]⟩) (hD : D = DotDims.plain M K N)
    (x : Mat M K) (w : Mat K N) (i : (⟨2, ![M, N]⟩ : Shape).Idx) :
    ∑ k : D.contr.Idx, x (D.lhsIdx i k) * w (D.rhsIdx i k) = prod x w i := by
  subst hD
  exact sum_contr_eq_prod (DotDims.plain M K N) rfl rfl (fun _ _ => rfl) (fun _ _ => rfl) (fun _ _ => rfl)
    (fun _ _ => rfl) x w i

/-- A matrix unit's product into the zero accumulator is `prod` (a change of float format is the identity here). -/
theorem matmul_eq_prod {M K N : Nat} {φ₁ φ₂ : FTy} (D : DotDims ⟨2, ![M, K]⟩ ⟨2, ![K, N]⟩ ⟨2, ![M, N]⟩)
    (hD : D = DotDims.plain M K N) (prec : Option ContractPrecision)
    (x : FVec Ideal ⟨2, ![M, K]⟩ φ₁) (w : FVec Ideal ⟨2, ![K, N]⟩ φ₂) :
    matmul D prec x w (constant ⟨2, ![M, N]⟩ .f32 0x00000000#32) = prod x w := by
  funext i
  exact (Ideal.matmul_constant_zero_apply D prec x w i).trans (sum_plain D hD x w i)

/-- A host contraction is `prod`. -/
theorem dotGeneral_eq_prod {M K N : Nat} {φ₁ φ₂ : FTy} (D : DotDims ⟨2, ![M, K]⟩ ⟨2, ![K, N]⟩ ⟨2, ![M, N]⟩)
    (hD : D = DotDims.plain M K N) (prec : Option ContractPrecision)
    (x : FVec Ideal ⟨2, ![M, K]⟩ φ₁) (w : FVec Ideal ⟨2, ![K, N]⟩ φ₂) :
    Host.dotGeneral D prec x w = prod x w := by
  funext i
  exact (Ideal.dotGeneral_apply D prec .single x w i).trans (sum_plain D hD x w i)

/-! ## A bias row stretched over the rows -/

/-- A `1 × N` row stretched to `M × N` (a kernel's spelling), read at an index. -/
theorem stretch_row {M N : Nat} (v : (⟨2, ![1, N]⟩ : Shape).Idx → EReal)
    (h : (⟨2, ![1, N]⟩ : Shape).Broadcasts ⟨2, ![M, N]⟩) (i : (⟨2, ![M, N]⟩ : Shape).Idx) :
    broadcastTo ⟨2, ![M, N]⟩ v h i = v (ix2 0 (i 1)) :=
  broadcastTo_apply v h i (ix2 0 (i 1)) (fun a => by
    match a with
    | ⟨0, _⟩ => simp
    | ⟨1, _⟩ =>
      show (i 1).val = if N = 1 then 0 else (i 1).val
      split_ifs with hN
      · have := (i 1).isLt; subst hN; simp at this; omega
      · rfl)

/-- A vector of `N` entries made a `1 × N` row and stretched to `M × N` (a host program's spelling), read at an
    index. -/
theorem stretch_vec {M N : Nat} (b : Row N)
    (h' : (⟨1, ![N]⟩ : Shape).BroadcastsInDim ⟨2, ![1, N]⟩ ![1])
    (h : (⟨2, ![1, N]⟩ : Shape).BroadcastsInDim ⟨2, ![M, N]⟩ ![0, 1]) (i : (⟨2, ![M, N]⟩ : Shape).Idx) :
    broadcastInDim ⟨2, ![M, N]⟩ ![0, 1] h (broadcastInDim ⟨2, ![1, N]⟩ ![1] h' b) i = b (ix1 (i 1)) := by
  refine (broadcastInDim_apply ![0, 1] h _ i (ix2 0 (i 1)) (fun a => by
    match a with
    | ⟨0, _⟩ => simp
    | ⟨1, _⟩ =>
      show (i 1).val = if N = 1 then 0 else (i 1).val
      split_ifs with hN
      · have := (i 1).isLt; subst hN; simp at this; omega
      · rfl)).trans ?_
  exact broadcastInDim_apply ![1] h' b (ix2 0 (i 1)) (ix1 (i 1)) (fun a => by
    match a with
    | ⟨0, _⟩ =>
      show (i 1).val = if N = 1 then 0 else (i 1).val
      split_ifs with hN
      · have := (i 1).isLt; subst hN; simp at this; omega
      · rfl)

/-- A vector of `N` entries recast as a `1 × N` row, read at an index. -/
theorem recast_row {N : Nat} (b : Row N) (h : (⟨1, ![N]⟩ : Shape).ShapeCasts ⟨2, ![1, N]⟩) (q : Fin N) :
    shapeCast ⟨2, ![1, N]⟩ b h (ix2 0 q) = b (ix1 q) := by
  have e := shapeCast_addUnit_apply (n := 1) ![N] b h (ix2 0 q)
  refine e.trans (congrArg b (funext fun a => ?_))
  match a with
  | ⟨0, _⟩ => rfl

/-! ## The pieces as a kernel body and as a host program spell them -/

section Spellings

variable {s : Shape}

/-- The leaky rectifier as a kernel body writes it: a comparison with the zero splat, the slope's splat times the
    value, a select. -/
theorem lrelu_kernel (z : FVec Ideal s .f32) :
    select (cmpf .oge z (broadcast s (Scalar.ofBits .f32 0x00000000#32))) z
      (mulf (broadcast s (Scalar.ofBits .f32 0x3DCCCCCD#32)) z) = fun i => lrelu (z i) := rfl

/-- The leaky rectifier as a host program writes it. -/
theorem lrelu_host (z : FVec Ideal s .f32) (h : (⟨0, ![]⟩ : Shape).BroadcastsInDim s ![]) :
    select (cmpf .oge z (broadcastInDim s ![] h (constant ⟨0, ![]⟩ .f32 0x00000000#32))) z
      (mulf (broadcastInDim s ![] h (constant ⟨0, ![]⟩ .f32 0x3DCCCCCD#32)) z) = fun i => lrelu (z i) := rfl

/-- The rectifier as a kernel body writes it. -/
theorem relu_kernel (z : FVec Ideal s .f32) :
    maximumf z (broadcast s (Scalar.ofBits .f32 0x00000000#32)) = fun i => relu (z i) := rfl

/-- The rectifier as a host program writes it. -/
theorem relu_host (z : FVec Ideal s .f32) (h : (⟨0, ![]⟩ : Shape).BroadcastsInDim s ![]) :
    maximumf z (broadcastInDim s ![] h (constant ⟨0, ![]⟩ .f32 0x00000000#32)) = fun i => relu (z i) := rfl

end Spellings

/-- Adding a stretched `1 × N` row (a kernel's spelling). -/
theorem addrow_kernel {M N : Nat} (y : FVec Ideal ⟨2, ![M, N]⟩ .f32) (b : FVec Ideal ⟨2, ![1, N]⟩ .f32)
    (h : (⟨2, ![1, N]⟩ : Shape).Broadcasts ⟨2, ![M, N]⟩) :
    addf y (broadcastTo ⟨2, ![M, N]⟩ b h) = fun i => y i + b (ix2 0 (i 1)) := by
  funext i
  show y i + broadcastTo ⟨2, ![M, N]⟩ b h i = _
  rw [stretch_row]

/-- Adding a stretched vector (a host program's spelling). -/
theorem addrow_host {M N : Nat} (y : FVec Ideal ⟨2, ![M, N]⟩ .f32) (b : FVec Ideal ⟨1, ![N]⟩ .f32)
    (h' : (⟨1, ![N]⟩ : Shape).BroadcastsInDim ⟨2, ![1, N]⟩ ![1])
    (h : (⟨2, ![1, N]⟩ : Shape).BroadcastsInDim ⟨2, ![M, N]⟩ ![0, 1]) :
    addf y (broadcastInDim ⟨2, ![M, N]⟩ ![0, 1] h (broadcastInDim ⟨2, ![1, N]⟩ ![1] h' b))
      = fun i => y i + b (ix1 (i 1)) := by
  funext i
  show y i + broadcastInDim ⟨2, ![M, N]⟩ ![0, 1] h (broadcastInDim ⟨2, ![1, N]⟩ ![1] h' b) i = _
  rw [stretch_vec]

/-! ## Whole layers as a host program spells them -/

/-- One layer's update in a host program's spelling: two contractions, the stretched bias vector, and the
    compare-and-select leaky rectifier on the sum. -/
theorem upd_host {M K N : Nat} (D : DotDims ⟨2, ![M, K]⟩ ⟨2, ![K, N]⟩ ⟨2, ![M, N]⟩) (hD : D = DotDims.plain M K N)
    (agg h : FVec Ideal ⟨2, ![M, K]⟩ .f32) (wl ws : FVec Ideal ⟨2, ![K, N]⟩ .f32) (b : FVec Ideal ⟨1, ![N]⟩ .f32)
    (h' : (⟨1, ![N]⟩ : Shape).BroadcastsInDim ⟨2, ![1, N]⟩ ![1])
    (hb : (⟨2, ![1, N]⟩ : Shape).BroadcastsInDim ⟨2, ![M, N]⟩ ![0, 1])
    (hz : (⟨0, ![]⟩ : Shape).BroadcastsInDim ⟨2, ![M, N]⟩ ![]) :
    select
        (cmpf .oge
          (addf (addf (Host.dotGeneral D none agg wl) (Host.dotGeneral D none h ws))
            (broadcastInDim ⟨2, ![M, N]⟩ ![0, 1] hb (broadcastInDim ⟨2, ![1, N]⟩ ![1] h' b)))
          (broadcastInDim ⟨2, ![M, N]⟩ ![] hz (constant ⟨0, ![]⟩ .f32 0x00000000#32)))
        (addf (addf (Host.dotGeneral D none agg wl) (Host.dotGeneral D none h ws))
          (broadcastInDim ⟨2, ![M, N]⟩ ![0, 1] hb (broadcastInDim ⟨2, ![1, N]⟩ ![1] h' b)))
        (mulf (broadcastInDim ⟨2, ![M, N]⟩ ![] hz (constant ⟨0, ![]⟩ .f32 0x3DCCCCCD#32))
          (addf (addf (Host.dotGeneral D none agg wl) (Host.dotGeneral D none h ws))
            (broadcastInDim ⟨2, ![M, N]⟩ ![0, 1] hb (broadcastInDim ⟨2, ![1, N]⟩ ![1] h' b))))
      = upd agg h wl ws b := by
  rw [dotGeneral_eq_prod D hD, dotGeneral_eq_prod D hD, addrow_host, lrelu_host]
  rfl

/-- The read-out in a host program's spelling. -/
theorem readout_host {G A B C E : Nat}
    (D0 : DotDims ⟨2, ![G, A]⟩ ⟨2, ![A, B]⟩ ⟨2, ![G, B]⟩) (hD0 : D0 = DotDims.plain G A B)
    (D1 : DotDims ⟨2, ![G, B]⟩ ⟨2, ![B, C]⟩ ⟨2, ![G, C]⟩) (hD1 : D1 = DotDims.plain G B C)
    (D2 : DotDims ⟨2, ![G, C]⟩ ⟨2, ![C, E]⟩ ⟨2, ![G, E]⟩) (hD2 : D2 = DotDims.plain G C E)
    (g : FVec Ideal ⟨2, ![G, A]⟩ .f32) (w0 : FVec Ideal ⟨2, ![A, B]⟩ .f32) (b0 : FVec Ideal ⟨1, ![B]⟩ .f32)
    (w1 : FVec Ideal ⟨2, ![B, C]⟩ .f32) (b1 : FVec Ideal ⟨1, ![C]⟩ .f32)
    (w2 : FVec Ideal ⟨2, ![C, E]⟩ .f32) (b2 : FVec Ideal ⟨1, ![E]⟩ .f32)
    (hzg : (⟨0, ![]⟩ : Shape).BroadcastsInDim ⟨2, ![G, A]⟩ ![])
    (h0' : (⟨1, ![B]⟩ : Shape).BroadcastsInDim ⟨2, ![1, B]⟩ ![1]) (h0 : (⟨2, ![1, B]⟩ : Shape).BroadcastsInDim ⟨2, ![G, B]⟩ ![0, 1])
    (hz0 : (⟨0, ![]⟩ : Shape).BroadcastsInDim ⟨2, ![G, B]⟩ ![])
    (h1' : (⟨1, ![C]⟩ : Shape).BroadcastsInDim ⟨2, ![1, C]⟩ ![1]) (h1 : (⟨2, ![1, C]⟩ : Shape).BroadcastsInDim ⟨2, ![G, C]⟩ ![0, 1])
    (hz1 : (⟨0, ![]⟩ : Shape).BroadcastsInDim ⟨2, ![G, C]⟩ ![])
    (h2' : (⟨1, ![E]⟩ : Shape).BroadcastsInDim ⟨2, ![1, E]⟩ ![1]) (h2 : (⟨2, ![1, E]⟩ : Shape).BroadcastsInDim ⟨2, ![G, E]⟩ ![0, 1]) :
    addf
        (Host.dotGeneral D2 none
          (maximumf
            (addf
              (Host.dotGeneral D1 none
                (maximumf
                  (addf
                    (Host.dotGeneral D0 none
                      (select (cmpf .oge g (broadcastInDim ⟨2, ![G, A]⟩ ![] hzg (constant ⟨0, ![]⟩ .f32 0x00000000#32))) g
                        (mulf (broadcastInDim ⟨2, ![G, A]⟩ ![] hzg (constant ⟨0, ![]⟩ .f32 0x3DCCCCCD#32)) g))
                      w0)
                    (broadcastInDim ⟨2, ![G, B]⟩ ![0, 1] h0 (broadcastInDim ⟨2, ![1, B]⟩ ![1] h0' b0)))
                  (broadcastInDim ⟨2, ![G, B]⟩ ![] hz0 (constant ⟨0, ![]⟩ .f32 0x00000000#32)))
                w1)
              (broadcastInDim ⟨2, ![G, C]⟩ ![0, 1] h1 (broadcastInDim ⟨2, ![1, C]⟩ ![1] h1' b1)))
            (broadcastInDim ⟨2, ![G, C]⟩ ![] hz1 (constant ⟨0, ![]⟩ .f32 0x00000000#32)))
          w2)
        (broadcastInDim ⟨2, ![G, E]⟩ ![0, 1] h2 (broadcastInDim ⟨2, ![1, E]⟩ ![1] h2' b2))
      = readout g w0 b0 w1 b1 w2 b2 := by
  rw [lrelu_host, dotGeneral_eq_prod D0 hD0, addrow_host, relu_host, dotGeneral_eq_prod D1 hD1, addrow_host, relu_host,
    dotGeneral_eq_prod D2 hD2, addrow_host]
  rfl

/-! ## Each layer depends on one row -/

/-- `prod` at row `r` reads row `r` of its left factor only. -/
theorem prod_row {M M' K N : Nat} (x : Mat M K) (x' : Mat M' K) (w w' : Mat K N) (r : Fin M) (r' : Fin M') (q : Fin N)
    (hx : ∀ k, x' (ix2 r' k) = x (ix2 r k)) (hw : ∀ k, w' (ix2 k q) = w (ix2 k q)) :
    prod x' w' (ix2 r' q) = prod x w (ix2 r q) := by
  unfold prod
  exact Finset.sum_congr rfl fun k _ => by rw [show (ix2 r' q) 0 = r' from rfl, show (ix2 r q) 0 = r from rfl,
    show (ix2 r' q) 1 = q from rfl, show (ix2 r q) 1 = q from rfl, hx k, hw k]

/-- A layer's update at row `r` reads row `r` of the aggregate and of the features. -/
theorem upd_row {M M' K N : Nat} (agg h : Mat M K) (agg' h' : Mat M' K) (wl ws wl' ws' : Mat K N) (b b' : Row N)
    (r : Fin M) (r' : Fin M') (q : Fin N)
    (hagg : ∀ k, agg' (ix2 r' k) = agg (ix2 r k)) (hh : ∀ k, h' (ix2 r' k) = h (ix2 r k))
    (hwl : ∀ k, wl' (ix2 k q) = wl (ix2 k q)) (hws : ∀ k, ws' (ix2 k q) = ws (ix2 k q)) (hb : b' (ix1 q) = b (ix1 q)) :
    upd agg' h' wl' ws' b' (ix2 r' q) = upd agg h wl ws b (ix2 r q) := by
  unfold upd
  rw [prod_row agg agg' wl wl' r r' q hagg hwl, prod_row h h' ws ws' r r' q hh hws]
  exact congrArg (fun z => lrelu (_ + z)) hb

end Cert.Gcn.Layer

end
-- ==== Proof.Region0.lean ====
/-
  Region 0: the first layer's update, block by block. The grid has ten points; point `t` reads rows
  `10000 t … 10000 t + 9999` of the aggregate and of the node features, the two whole weight matrices and the bias
  row, and writes the same rows of the result. Its body is the layer's update `lrelu (agg · Wl + h · Ws + b)` of its
  blocks, and an entry of the update depends on one row only, so what point `t` writes back is block `t` of the
  update of the WHOLE arrays; the ten blocks tile the result, which therefore ends as that update.
-/
import proofs.«134033_j25125558682224_1_alg».proof.Proof.Gen.KernelIdeal.Frame
import proofs.«134033_j25125558682224_1_alg».proof.Proof.Layers

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn.Layer Cert.Gcn.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer's update of its loaded blocks (the bias block's one row read at the
    column). -/
theorem pay_eq (x0 x1 : Vec Ideal S10000x64 .f32) (x2 x3 : Vec Ideal S64x64 .f32) (x4 : Vec Ideal S1x64 .f32) :
    k0_pay1 x0 x1 x2 x3 x4 = upd x0 x1 x2 x3 (fun j => x4 (ix2 0 (j 0))) := by
  unfold k0_pay1
  simp only [shapeCast_self]
  rw [matmul_eq_prod dot_S10000x64_S64x64_S10000x64_1_0_0_1_n_n rfl, matmul_eq_prod dot_S10000x64_S64x64_S10000x64_1_0_0_1_n_n rfl,
    addrow_kernel, lrelu_kernel]
  rfl

/-- The index maps over the grid: the row windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-- The row of the whole arrays that row `r'` of point `t`'s blocks is. -/
def rowOf (t : Fin cfg0.N) (r' : Fin 10000) : Fin 100000 := ⟨t.val * 10000 + r'.val, by have := t_lt t; have := r'.isLt; omega⟩

/-- Entry `(r', k)` of point `t`'s block of the aggregate is entry `(10000 t + r', k)` of the aggregate. -/
theorem emb0 (t : Fin cfg0.N) (r' : Fin 10000) (k : Fin 64) :
    ((cfg0.win 0).blk t).view.emb (ix2 r' k : S10000x64.Idx) = (ix2 (rowOf t r') k : S100000x64.Idx) := by
  obtain ⟨e0, e1, -⟩ := idx_facts t
  funext a; apply Fin.ext
  match a with
  | ⟨0, _⟩ => show win0_0.index t (0 : Fin 2) * 10000 + 1 * r'.val = t.val * 10000 + r'.val; omega
  | ⟨1, _⟩ => show win0_0.index t (1 : Fin 2) * 64 + 1 * k.val = k.val; omega

/-- The same for the node features. -/
theorem emb1 (t : Fin cfg0.N) (r' : Fin 10000) (k : Fin 64) :
    ((cfg0.win 1).blk t).view.emb (ix2 r' k : S10000x64.Idx) = (ix2 (rowOf t r') k : S100000x64.Idx) := by
  obtain ⟨-, -, e0, e1, -⟩ := idx_facts t
  funext a; apply Fin.ext
  match a with
  | ⟨0, _⟩ => show win0_1.index t (0 : Fin 2) * 10000 + 1 * r'.val = t.val * 10000 + r'.val; omega
  | ⟨1, _⟩ => show win0_1.index t (1 : Fin 2) * 64 + 1 * k.val = k.val; omega

/-- A weight matrix's one block is the matrix. -/
theorem emb2 (t : Fin cfg0.N) (k q : Fin 64) :
    ((cfg0.win 2).blk t).view.emb (ix2 k q : S64x64.Idx) = (ix2 k q : S64x64.Idx) := by
  obtain ⟨-, -, -, -, e0, e1, -⟩ := idx_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb3 (t : Fin cfg0.N) (k q : Fin 64) :
    ((cfg0.win 3).blk t).view.emb (ix2 k q : S64x64.Idx) = (ix2 k q : S64x64.Idx) := by
  obtain ⟨-, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The bias row's one block is the row. -/
theorem emb4 (t : Fin cfg0.N) (q : Fin 64) :
    ((cfg0.win 4).blk t).view.emb (ix2 0 q : S1x64.Idx) = (ix2 0 q : S1x64.Idx) := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- Entry `(r', q)` of point `t`'s block of the result is entry `(10000 t + r', q)` of the result. -/
theorem emb5 (t : Fin cfg0.N) (r' : Fin 10000) (q : Fin 64) :
    ((cfg0.win 5).blk t).view.emb (ix2 r' q : S10000x64.Idx) = (ix2 (rowOf t r') q : S100000x64.Idx) := by
  obtain ⟨-, -, -, -, -, -, -, -, -, -, e0, e1⟩ := idx_facts t
  funext a; apply Fin.ext
  match a with
  | ⟨0, _⟩ => show win0_5.index t (0 : Fin 2) * 10000 + 1 * r'.val = t.val * 10000 + r'.val; omega
  | ⟨1, _⟩ => show win0_5.index t (1 : Fin 2) * 64 + 1 * q.val = q.val; omega

/-- The first layer's update of the arrays as the region finds them. -/
def G (c : Dev nD) : S100000x64.Idx → EReal :=
  upd (V c main_v21) (V c main_v11) (V c main_arg2) (V c main_arg3) (fun j => V c main_v22 (ix2 0 (j 0)))

/-- WHAT POINT `t` WRITES BACK is block `t` of the update of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [pay_eq]
  refine funext fun (j : S10000x64.Idx) => ?_
  obtain ⟨r', q, rfl⟩ : ∃ (r' : Fin 10000) (q : Fin 64), j = ix2 r' q := ⟨j 0, j 1, eq_ix2 j⟩
  show _ = G V c (((cfg0.win 5).blk t).view.emb (ix2 r' q : S10000x64.Idx))
  rw [emb5]
  unfold G
  refine upd_row _ _ _ _ _ _ _ _ _ _ (rowOf t r') r' q ?_ ?_ ?_ ?_ ?_
  · intro k
    show V c main_v21 (((cfg0.win 0).blk t).view.emb (ix2 r' k : S10000x64.Idx)) = _
    rw [emb0]
  · intro k
    show V c main_v11 (((cfg0.win 1).blk t).view.emb (ix2 r' k : S10000x64.Idx)) = _
    rw [emb1]
  · intro k
    show V c main_arg2 (((cfg0.win 2).blk t).view.emb (ix2 k q : S64x64.Idx)) = _
    rw [emb2]
  · intro k
    show V c main_arg3 (((cfg0.win 3).blk t).view.emb (ix2 k q : S64x64.Idx)) = _
    rw [emb3]
  · show V c main_v22 (((cfg0.win 4).blk t).view.emb (ix2 0 q : S1x64.Idx)) = _
    rw [emb4]

/-- An index of the result is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v23).slice (win0_5.rect t)).set ↔ _
  rw [View.set_slice_whole, Rect.mem_set_unit]
  exact Iff.rfl

/-- The ten blocks tile the result: row `r` lies in the block of point `r / 10000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, -, -, -, -, e0, e1⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE RESULT ARRAY after region 0: the first layer's update of the arrays the region finds. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  Region 1: the second layer's update followed by the projection, block by block. Point `t` of the ten reads rows
  `10000 t … 10000 t + 9999` of the aggregate and of the first layer's features, the whole weight matrices, the bias
  row and the projection matrix, and writes the same rows of the result: `lrelu (agg · Wl + h · Ws + b) · Wp` of its
  blocks. An entry of the result depends on one row only, so point `t` writes back block `t` of that function of the
  WHOLE arrays, and the ten blocks tile the result.
-/
import proofs.«134033_j25125558682224_1_alg».proof.Proof.Gen.KernelIdeal.Frame
import proofs.«134033_j25125558682224_1_alg».proof.Proof.Layers

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn.Layer Cert.Gcn.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the projection of the layer's update of its loaded blocks. -/
theorem pay_eq (x0 x1 : Vec Ideal S10000x64 .f32) (x2 x3 : Vec Ideal S64x64 .f32) (x4 : Vec Ideal S1x64 .f32)
    (x5 : Vec Ideal S64x64 .f32) :
    k1_pay1 x0 x1 x2 x3 x4 x5 = prod (upd x0 x1 x2 x3 (fun j => x4 (ix2 0 (j 0)))) x5 := by
  unfold k1_pay1
  simp only [shapeCast_self]
  rw [matmul_eq_prod dot_S10000x64_S64x64_S10000x64_1_0_0_1_n_n rfl, matmul_eq_prod dot_S10000x64_S64x64_S10000x64_1_0_0_1_n_n rfl,
    addrow_kernel, lrelu_kernel, matmul_eq_prod dot_S10000x64_S64x64_S10000x64_1_0_0_1_n_n rfl]
  rfl

/-- The index maps over the grid: the row windows move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := lt_of_lt_of_eq t.isLt N_1

/-- The row of the whole arrays that row `r'` of point `t`'s blocks is. -/
def rowOf (t : Fin cfg1.N) (r' : Fin 10000) : Fin 100000 := ⟨t.val * 10000 + r'.val, by have := t_lt t; have := r'.isLt; omega⟩

theorem emb0 (t : Fin cfg1.N) (r' : Fin 10000) (k : Fin 64) :
    ((cfg1.win 0).blk t).view.emb (ix2 r' k : S10000x64.Idx) = (ix2 (rowOf t r') k : S100000x64.Idx) := by
  obtain ⟨e0, e1, -⟩ := idx_facts t
  funext a; apply Fin.ext
  match a with
  | ⟨0, _⟩ => show win1_0.index t (0 : Fin 2) * 10000 + 1 * r'.val = t.val * 10000 + r'.val; omega
  | ⟨1, _⟩ => show win1_0.index t (1 : Fin 2) * 64 + 1 * k.val = k.val; omega

theorem emb1 (t : Fin cfg1.N) (r' : Fin 10000) (k : Fin 64) :
    ((cfg1.win 1).blk t).view.emb (ix2 r' k : S10000x64.Idx) = (ix2 (rowOf t r') k : S100000x64.Idx) := by
  obtain ⟨-, -, e0, e1, -⟩ := idx_facts t
  funext a; apply Fin.ext
  match a with
  | ⟨0, _⟩ => show win1_1.index t (0 : Fin 2) * 10000 + 1 * r'.val = t.val * 10000 + r'.val; omega
  | ⟨1, _⟩ => show win1_1.index t (1 : Fin 2) * 64 + 1 * k.val = k.val; omega

theorem emb2 (t : Fin cfg1.N) (k q : Fin 64) :
    ((cfg1.win 2).blk t).view.emb (ix2 k q : S64x64.Idx) = (ix2 k q : S64x64.Idx) := by
  obtain ⟨-, -, -, -, e0, e1, -⟩ := idx_facts t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem emb3 (t : Fin cfg1.N) (k q : Fin 64) :
    ((cfg1.win 3).blk t).view.emb (ix2 k q : S64x64.Idx) = (ix2 k q : S64x64.Idx) := by
  obtain ⟨-, -, -, -, -, -, e0, e1, -⟩ := idx_facts t
  funext a; apply Fin.ext
  match a with
  | ⟨0, _⟩ => show win1_3.index t (0 : Fin 2) * 64 + 1 * k.val = k.val; omega
  | ⟨1, _⟩ => show win1_3.index t (1 : Fin 2) * 64 + 1 * q.val = q.val; omega

theorem emb4 (t : Fin cfg1.N) (q : Fin 64) :
    ((cfg1.win 4).blk t).view.emb (ix2 0 q : S1x64.Idx) = (ix2 0 q : S1x64.Idx) := by
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 64 + 1 * q.val = q.val; omega

theorem emb5 (t : Fin cfg1.N) (k q : Fin 64) :
    ((cfg1.win 5).blk t).view.emb (ix2 k q : S64x64.Idx) = (ix2 k q : S64x64.Idx) := by
  obtain ⟨-, -, -, -, -, -, -, -, -, -, e0, e1, -⟩ := idx_facts t
  funext a; apply Fin.ext
  match a with
  | ⟨0, _⟩ => show win1_5.index t (0 : Fin 2) * 64 + 1 * k.val = k.val; omega
  | ⟨1, _⟩ => show win1_5.index t (1 : Fin 2) * 64 + 1 * q.val = q.val; omega

theorem emb6 (t : Fin cfg1.N) (r' : Fin 10000) (q : Fin 64) :
    ((cfg1.win 6).blk t).view.emb (ix2 r' q : S10000x64.Idx) = (ix2 (rowOf t r') q : S100000x64.Idx) := by
  obtain ⟨-, -, -, -, -, -, -, -, -, -, -, -, e0, e1⟩ := idx_facts t
  funext a; apply Fin.ext
  match a with
  | ⟨0, _⟩ => show win1_6.index t (0 : Fin 2) * 10000 + 1 * r'.val = t.val * 10000 + r'.val; omega
  | ⟨1, _⟩ => show win1_6.index t (1 : Fin 2) * 64 + 1 * q.val = q.val; omega

/-- The second layer's update of the arrays as the region finds them, projected. -/
def G (c : Dev nD) : S100000x64.Idx → EReal :=
  prod (upd (V c main_v33) (V c main_v23) (V c main_arg5) (V c main_arg6) (fun j => V c main_v34 (ix2 0 (j 0))))
    (V c main_arg8)

/-- WHAT POINT `t` WRITES BACK is block `t` of that function of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  rw [pay_eq]
  refine funext fun (j : S10000x64.Idx) => ?_
  obtain ⟨r', q, rfl⟩ : ∃ (r' : Fin 10000) (q : Fin 64), j = ix2 r' q := ⟨j 0, j 1, eq_ix2 j⟩
  show _ = G V c (((cfg1.win 6).blk t).view.emb (ix2 r' q : S10000x64.Idx))
  rw [emb6]
  unfold G
  refine prod_row _ _ _ _ (rowOf t r') r' q (fun k' => ?_) (fun k => ?_)
  · refine upd_row _ _ _ _ _ _ _ _ _ _ (rowOf t r') r' k' ?_ ?_ ?_ ?_ ?_
    · intro k
      show V c main_v33 (((cfg1.win 0).blk t).view.emb (ix2 r' k : S10000x64.Idx)) = _
      rw [emb0]
    · intro k
      show V c main_v23 (((cfg1.win 1).blk t).view.emb (ix2 r' k : S10000x64.Idx)) = _
      rw [emb1]
    · intro k
      show V c main_arg5 (((cfg1.win 2).blk t).view.emb (ix2 k k' : S64x64.Idx)) = _
      rw [emb2]
    · intro k
      show V c main_arg6 (((cfg1.win 3).blk t).view.emb (ix2 k k' : S64x64.Idx)) = _
      rw [emb3]
    · show V c main_v34 (((cfg1.win 4).blk t).view.emb (ix2 0 k' : S1x64.Idx)) = _
      rw [emb4]
  · show V c main_arg8 (((cfg1.win 5).blk t).view.emb (ix2 k q : S64x64.Idx)) = _
    rw [emb5]

theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v35).slice (win1_6.rect t)).set ↔ _
  rw [View.set_slice_whole, Rect.mem_set_unit]
  exact Iff.rfl

/-- The ten blocks tile the result: row `r` lies in the block of point `r / 10000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, -, -, -, -, -, -, e0, e1⟩ := idx_facts t
  have ht : t.val = (i 0).val / 10000 := rfl
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE RESULT ARRAY after region 1. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.Region2.lean ====
/-
  Region 2: the read-out on the pooled features, in ONE grid point whose blocks are the whole arrays:
  `lrelu`, then `relu (· W0 + b0)`, `relu (· W1 + b1)` and `· W2 + b2`, each product on the matrix unit into a zero
  accumulator, each bias a one-row block stretched over the rows. The one block written back is the whole result.
-/
import proofs.«134033_j25125558682224_1_alg».proof.Proof.Gen.KernelIdeal.Frame
import proofs.«134033_j25125558682224_1_alg».proof.Proof.Layers

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn.Layer Cert.Gcn.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the read-out of its loaded blocks (each bias block's one row read at the column). -/
theorem pay_eq (x0 : Vec Ideal S2048x64 .f32) (x1 : Vec Ideal S64x128 .f32) (x2 : Vec Ideal S1x128 .f32)
    (x3 : Vec Ideal S128x32 .f32) (x4 : Vec Ideal S1x32 .f32) (x5 : Vec Ideal S32x1 .f32) (x6 : Vec Ideal S1x1 .f32) :
    k2_pay1 x0 x1 x2 x3 x4 x5 x6
      = readout x0 x1 (fun j => x2 (ix2 0 (j 0))) x3 (fun j => x4 (ix2 0 (j 0))) x5 (fun j => x6 (ix2 0 (j 0))) := by
  unfold k2_pay1
  simp only [shapeCast_self]
  rw [lrelu_kernel, matmul_eq_prod dot_S2048x64_S64x128_S2048x128_1_0_0_1_n_n rfl, addrow_kernel, relu_kernel,
    matmul_eq_prod dot_S2048x128_S128x32_S2048x32_1_0_0_1_n_n rfl, addrow_kernel, relu_kernel,
    matmul_eq_prod dot_S2048x32_S32x1_S2048x1_1_0_0_1_n_n rfl, addrow_kernel]
  rfl

/-- Every window's one block sits at the origin. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem emb0 (t : Fin cfg2.N) (y : S2048x64.Idx) : ((cfg2.win 0).blk t).view.emb y = y := by
  obtain ⟨e0, e1, -⟩ := idx_facts t
  funext a; apply Fin.ext
  match a with
  | ⟨0, _⟩ => show win2_0.index t (0 : Fin 2) * 2048 + 1 * (y 0).val = (y 0).val; omega
  | ⟨1, _⟩ => show win2_0.index t (1 : Fin 2) * 64 + 1 * (y 1).val = (y 1).val; omega

theorem emb1 (t : Fin cfg2.N) (y : S64x128.Idx) : ((cfg2.win 1).blk t).view.emb y = y := by
  obtain ⟨-, -, e0, e1, -⟩ := idx_facts t
  funext a; apply Fin.ext
  match a with
  | ⟨0, _⟩ => show win2_1.index t (0 : Fin 2) * 64 + 1 * (y 0).val = (y 0).val; omega
  | ⟨1, _⟩ => show win2_1.index t (1 : Fin 2) * 128 + 1 * (y 1).val = (y 1).val; omega

theorem emb2 (t : Fin cfg2.N) (y : S1x128.Idx) : ((cfg2.win 2).blk t).view.emb y = y := by
  obtain ⟨-, -, -, -, e0, e1, -⟩ := idx_facts t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem emb3 (t : Fin cfg2.N) (y : S128x32.Idx) : ((cfg2.win 3).blk t).view.emb y = y := by
  obtain ⟨-, -, -, -, -, -, e0, e1, -⟩ := idx_facts t
  funext a; apply Fin.ext
  match a with
  | ⟨0, _⟩ => show win2_3.index t (0 : Fin 2) * 128 + 1 * (y 0).val = (y 0).val; omega
  | ⟨1, _⟩ => show win2_3.index t (1 : Fin 2) * 32 + 1 * (y 1).val = (y 1).val; omega

theorem emb4 (t : Fin cfg2.N) (y : S1x32.Idx) : ((cfg2.win 4).blk t).view.emb y = y := by
  obtain ⟨-, -, -, -, -, -, -, -, e0, e1, -⟩ := idx_facts t
  funext a; apply Fin.ext
  match a with
  | ⟨0, _⟩ => show win2_4.index t (0 : Fin 2) * 1 + 1 * (y 0).val = (y 0).val; omega
  | ⟨1, _⟩ => show win2_4.index t (1 : Fin 2) * 32 + 1 * (y 1).val = (y 1).val; omega

theorem emb5 (t : Fin cfg2.N) (y : S32x1.Idx) : ((cfg2.win 5).blk t).view.emb y = y := by
  obtain ⟨-, -, -, -, -, -, -, -, -, -, e0, e1, -⟩ := idx_facts t
  funext a; apply Fin.ext
  match a with
  | ⟨0, _⟩ => show win2_5.index t (0 : Fin 2) * 32 + 1 * (y 0).val = (y 0).val; omega
  | ⟨1, _⟩ => show win2_5.index t (1 : Fin 2) * 1 + 1 * (y 1).val = (y 1).val; omega

theorem emb6 (t : Fin cfg2.N) (y : S1x1.Idx) : ((cfg2.win 6).blk t).view.emb y = y := by
  obtain ⟨-, -, -, -, -, -, -, -, -, -, -, -, e0, e1, -⟩ := idx_facts t
  funext a; apply Fin.ext
  match a with
  | ⟨0, _⟩ => show win2_6.index t (0 : Fin 2) * 1 + 1 * (y 0).val = (y 0).val; omega
  | ⟨1, _⟩ => show win2_6.index t (1 : Fin 2) * 1 + 1 * (y 1).val = (y 1).val; omega

theorem emb7 (t : Fin cfg2.N) (y : S2048x1.Idx) : ((cfg2.win 7).blk t).view.emb y = y := by
  obtain ⟨-, -, -, -, -, -, -, -, -, -, -, -, -, -, e0, e1⟩ := idx_facts t
  funext a; apply Fin.ext
  match a with
  | ⟨0, _⟩ => show win2_7.index t (0 : Fin 2) * 2048 + 1 * (y 0).val = (y 0).val; omega
  | ⟨1, _⟩ => show win2_7.index t (1 : Fin 2) * 1 + 1 * (y 1).val = (y 1).val; omega

/-- The read-out of the arrays as the region finds them. -/
def G (c : Dev nD) : S2048x1.Idx → EReal :=
  readout (V c main_v38) (V c main_arg9) (fun j => V c main_v39 (ix2 0 (j 0))) (V c main_arg11)
    (fun j => V c main_v40 (ix2 0 (j 0))) (V c main_arg13) (fun j => V c main_v41 (ix2 0 (j 0)))

/-- WHAT THE ONE POINT WRITES BACK is the read-out of the whole arrays. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2048x64) hz, View.ld_unit_zero (S := S64x128) hz, View.ld_unit_zero (S := S1x128) hz,
    View.ld_unit_zero (S := S128x32) hz, View.ld_unit_zero (S := S1x32) hz, View.ld_unit_zero (S := S32x1) hz,
    View.ld_unit_zero (S := S1x1) hz]
  rw [pay_eq]
  have h0 : iblk2 V c 0 t = V c main_v38 :=
    funext fun (y : S2048x64.Idx) => show V c main_v38 (((cfg2.win 0).blk t).view.emb y) = V c main_v38 y from congrArg _ (emb0 t y)
  have h1 : iblk2 V c 1 t = V c main_arg9 :=
    funext fun (y : S64x128.Idx) => show V c main_arg9 (((cfg2.win 1).blk t).view.emb y) = V c main_arg9 y from congrArg _ (emb1 t y)
  have h2 : iblk2 V c 2 t = V c main_v39 :=
    funext fun (y : S1x128.Idx) => show V c main_v39 (((cfg2.win 2).blk t).view.emb y) = V c main_v39 y from congrArg _ (emb2 t y)
  have h3 : iblk2 V c 3 t = V c main_arg11 :=
    funext fun (y : S128x32.Idx) => show V c main_arg11 (((cfg2.win 3).blk t).view.emb y) = V c main_arg11 y from congrArg _ (emb3 t y)
  have h4 : iblk2 V c 4 t = V c main_v40 :=
    funext fun (y : S1x32.Idx) => show V c main_v40 (((cfg2.win 4).blk t).view.emb y) = V c main_v40 y from congrArg _ (emb4 t y)
  have h5 : iblk2 V c 5 t = V c main_arg13 :=
    funext fun (y : S32x1.Idx) => show V c main_arg13 (((cfg2.win 5).blk t).view.emb y) = V c main_arg13 y from congrArg _ (emb5 t y)
  have h6 : iblk2 V c 6 t = V c main_v41 :=
    funext fun (y : S1x1.Idx) => show V c main_v41 (((cfg2.win 6).blk t).view.emb y) = V c main_v41 y from congrArg _ (emb6 t y)
  rw [h0, h1, h2, h3, h4, h5, h6]
  refine funext fun (j : S2048x1.Idx) => ?_
  show _ = G V c (((cfg2.win 7).blk t).view.emb j)
  rw [emb7]
  rfl

theorem mem_blk (t : Fin cfg2.N) (i : S2048x1.Idx) :
    i ∈ ((cfg2.win 7).blk t).view.set ↔ ∀ a : Fin 2, win2_7.index t a * S2048x1.size a ≤ (i a).val ∧ (i a).val < win2_7.index t a * S2048x1.size a + S2048x1.size a := by
  show i ∈ ((View.whole main_v42).slice (win2_7.rect t)).set ↔ _
  rw [View.set_slice_whole, Rect.mem_set_unit]
  exact Iff.rfl

/-- The one block is the whole result. -/
theorem cover (i : S2048x1.Idx) :
    ∃ t : Fin cfg2.N, (cfg2.win 7).flush t = true ∧ i ∈ ((cfg2.win 7).blk t).view.set := by
  have hi0 : (i 0).val < 2048 := (i 0).isLt
  have hi1 : (i 1).val < 1 := (i 1).isLt
  let t : Fin cfg2.N := ⟨0, by rw [show cfg2.N = 1 from N_2]; omega⟩
  obtain ⟨-, -, -, -, -, -, -, -, -, -, -, -, -, -, e0, e1⟩ := idx_facts t
  refine ⟨t, flush2_7 t, ?_⟩
  rw [mem_blk]
  intro a
  match a with
  | ⟨0, _⟩ => show win2_7.index t (0 : Fin 2) * 2048 ≤ (i 0).val ∧ (i 0).val < win2_7.index t (0 : Fin 2) * 2048 + 2048; omega
  | ⟨1, _⟩ => show win2_7.index t (1 : Fin 2) * 1 ≤ (i 1).val ∧ (i 1).val < win2_7.index t (1 : Fin 2) * 1 + 1; omega

/-- THE RESULT ARRAY after region 2. -/
theorem final (c : Dev nD) : (dat2 V c).arrAt 7 cfg2.N = G V c :=
  (dat2 V c).arrAt_eq_of_cover 7 (G V c) (fun t _ => flushed_eq V c t) (cover)

end Cert.KernelIdeal.Region2

end
-- ==== Proof.Glue.lean ====
/-
  The whole network as ONE function of the eighteen argument arrays, over the extended reals.
  The host side — the same operations in both programs — is kept as the operations themselves: the node features are
  the atom features joined with the gathered table rows; an aggregation gathers the features at the edges' sources
  (a negative index wrapped once, as jnp indexing does) and adds them into zeros at the edges' targets; the pooling adds
  the node rows into zeros at each node's graph. Between them sit the dense layers (Layers.lean):
    h1  = upd (agg h0) h0 W0l W0s b0,   p = upd (agg h1) h1 W1l W1s b1 · Wp,   out = readout (pool p) A0 a0 A1 a1 A2 a2.
-/
import proofs.«134033_j25125558682224_1_alg».proof.ReferenceIdeal
import proofs.«134033_j25125558682224_1_alg».proof.Proof.Gen.ReferenceIdeal
import proofs.«134033_j25125558682224_1_alg».proof.Proof.Layers

noncomputable section

namespace Cert.ReferenceIdeal.Glue

open Cert.ReferenceIdeal Cert.ReferenceIdeal.Facts₀ Cert.ReferenceIdeal.Facts
open Idealize.ShloMosaic Idealize.ShloMosaic.ValueIdx Cert.Gcn.Layer Cert.Gcn.Dense

/-- Row 0 of the edge list: the edges' sources. -/
def src (x16 : IVec S2x1600000 32) : IVec S1600000 32 :=
  shapeCast S1600000 (extractStridedSlice S1x1600000 ![0, 0] x16 slices_S2x1600000_S1x1600000_0_0) shapeCasts_S1x1600000_S1600000

/-- Row 1 of the edge list: the edges' targets. -/
def dst (x16 : IVec S2x1600000 32) : IVec S1600000 32 :=
  shapeCast S1600000 (extractStridedSlice S1x1600000 ![1, 0] x16 slices_S2x1600000_S1x1600000_1_0) shapeCasts_S1x1600000_S1600000

/-- The node features: the atom features joined with the table rows the nodes name (a negative index wrapped once). -/
def feat (x0 : FVec Ideal S100000x32 .f32) (x1 : FVec Ideal S50000x32 .f32) (x15 : IVec S100000 32) : FVec Ideal S100000x64 .f32 :=
  concatenate S100000x64 1 [⟨S100000x32, x0⟩, ⟨S100000x32, Host.gather gather_S50000x32_S100000x1_S100000x32_1_0_n_n_0_1_132 x1
    (broadcastInDim S100000x1 ![0] bcast_S100000_S100000x1_0
      (select (cmpi .slt x15 (broadcastInDim S100000 ![] bcast_S_S100000 (constantI S_ 32 0#32)))
        (addi x15 (broadcastInDim S100000 ![] bcast_S_S100000 (constantI S_ 32 50000#32))) x15))⟩]
    concatenates_S100000x32_S100000x32_S100000x64_d1

/-- One aggregation: the features at the edges' sources, added into zeros at the edges' targets. -/
def aggOf (x16 : IVec S2x1600000 32) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst x16))
    (Host.gather gather_S100000x64_S1600000x1_S1600000x64_1_0_n_n_0_1_164 h
      (broadcastInDim S1600000x1 ![0] bcast_S1600000_S1600000x1_0
        (select (cmpi .slt (src x16) (broadcastInDim S1600000 ![] bcast_S_S1600000 (constantI S_ 32 0#32)))
          (addi (src x16) (broadcastInDim S1600000 ![] bcast_S_S1600000 (constantI S_ 32 100000#32))) (src x16))))

/-- The pooling: the node rows added into zeros at each node's graph. -/
def poolOf (x17 : IVec S100000 32) (p : FVec Ideal S100000x64 .f32) : FVec Ideal S2048x64 .f32 :=
  Host.scatterAdd scatter_S2048x64_S100000x1_S100000x64_1_0_0_1
    (broadcastInDim S2048x64 ![] bcast_S_S2048x64 (constant S_ .f32 0x00000000#32))
    (broadcastInDim S100000x1 ![0] bcast_S100000_S100000x1_0 x17) p

/-- The first layer's features. -/
def h1 (x0 : FVec Ideal S100000x32 .f32) (x1 : FVec Ideal S50000x32 .f32) (x2 x3 : FVec Ideal S64x64 .f32) (x4 : FVec Ideal S64 .f32)
    (x15 : IVec S100000 32) (x16 : IVec S2x1600000 32) : FVec Ideal S100000x64 .f32 :=
  upd (aggOf x16 (feat x0 x1 x15)) (feat x0 x1 x15) x2 x3 x4

/-- The second layer's features, projected. -/
def proj (x0 : FVec Ideal S100000x32 .f32) (x1 : FVec Ideal S50000x32 .f32) (x2 x3 : FVec Ideal S64x64 .f32) (x4 : FVec Ideal S64 .f32)
    (x5 x6 : FVec Ideal S64x64 .f32) (x7 : FVec Ideal S64 .f32) (x8 : FVec Ideal S64x64 .f32)
    (x15 : IVec S100000 32) (x16 : IVec S2x1600000 32) : FVec Ideal S100000x64 .f32 :=
  prod (upd (aggOf x16 (h1 x0 x1 x2 x3 x4 x15 x16)) (h1 x0 x1 x2 x3 x4 x15 x16) x5 x6 x7) x8

/-- The network's result. -/
def total (x0 : FVec Ideal S100000x32 .f32) (x1 : FVec Ideal S50000x32 .f32) (x2 x3 : FVec Ideal S64x64 .f32) (x4 : FVec Ideal S64 .f32)
    (x5 x6 : FVec Ideal S64x64 .f32) (x7 : FVec Ideal S64 .f32) (x8 : FVec Ideal S64x64 .f32)
    (x9 : FVec Ideal S64x128 .f32) (x10 : FVec Ideal S128 .f32) (x11 : FVec Ideal S128x32 .f32) (x12 : FVec Ideal S32 .f32)
    (x13 : FVec Ideal S32x1 .f32) (x14 : FVec Ideal S1 .f32)
    (x15 : IVec S100000 32) (x16 : IVec S2x1600000 32) (x17 : IVec S100000 32) : FVec Ideal S2048x1 .f32 :=
  readout (poolOf x17 (proj x0 x1 x2 x3 x4 x5 x6 x7 x8 x15 x16)) x9 x10 x11 x12 x13 x14

end Cert.ReferenceIdeal.Glue

end
-- ==== Proof.KernelTotal.lean ====
import proofs.«134033_j25125558682224_1_alg».proof.Proof.Gen.KernelIdeal.Frame
import proofs.«134033_j25125558682224_1_alg».proof.Proof.Region0
import proofs.«134033_j25125558682224_1_alg».proof.Proof.Region1
import proofs.«134033_j25125558682224_1_alg».proof.Proof.Region2
import proofs.«134033_j25125558682224_1_alg».proof.Proof.Glue
import Idealize.ShloMosaic.Lib.StableHlo.Run

set_option maxRecDepth 16384

noncomputable section

namespace Cert.KernelIdeal.Total

open Cert.KernelIdeal Cert.KernelIdeal.Gen
open Idealize.ShloMosaic Idealize.ShloMosaic.TcCoe Idealize.ShloMosaic.ValueIdx Idealize.SL.Sem Idealize.ShloMosaic.StableHlo
open Cert.Gcn.Layer Cert.Gcn.Dense
open Cert.ReferenceIdeal.Glue (feat aggOf poolOf src dst h1 proj total)

variable (m : (ℓ : Loc nD τ sig) → Buf (Elt Ideal) ℓ) (ρ : Dev nD → PrngReg) (c : Dev nD)

/-! ## Region 0's entry: the node features, their aggregate, the first layer's parameters -/

theorem v1_arg2 : V1 m ρ c main_arg2 = (m ((c : Thread nD τ).loc main_arg2)) := by
  show StableHlo.after hostOps0 (W0 m ρ c) (Proc.devRef .tc main_arg2) = _
  dsimp only [hostOps0]
  after_results_simp <;> rfl

theorem v1_arg3 : V1 m ρ c main_arg3 = (m ((c : Thread nD τ).loc main_arg3)) := by
  show StableHlo.after hostOps0 (W0 m ρ c) (Proc.devRef .tc main_arg3) = _
  dsimp only [hostOps0]
  after_results_simp <;> rfl

theorem v1_v11 : V1 m ρ c main_v11 = feat (m ((c : Thread nD τ).loc main_arg0)) (m ((c : Thread nD τ).loc main_arg1)) (m ((c : Thread nD τ).loc main_arg15)) := by
  show StableHlo.after hostOps0 (W0 m ρ c) (Proc.devRef .tc main_v11) = _
  dsimp only [hostOps0]
  after_results_simp <;> rfl

theorem v1_v21 : V1 m ρ c main_v21 = aggOf (m ((c : Thread nD τ).loc main_arg16)) (feat (m ((c : Thread nD τ).loc main_arg0)) (m ((c : Thread nD τ).loc main_arg1)) (m ((c : Thread nD τ).loc main_arg15))) := by
  show StableHlo.after hostOps0 (W0 m ρ c) (Proc.devRef .tc main_v21) = _
  dsimp only [hostOps0]
  after_results_simp <;> rfl

theorem v1_v22 : V1 m ρ c main_v22 = shapeCast S1x64 (m ((c : Thread nD τ).loc main_arg4)) shapeCasts_S64_S1x64 := by
  show StableHlo.after hostOps0 (W0 m ρ c) (Proc.devRef .tc main_v22) = _
  dsimp only [hostOps0]
  after_results_simp <;> rfl

/-- A vector recast as a one-row block and read back at its columns is the vector. -/
theorem row_recast {N : Nat} (b : (⟨1, ![N]⟩ : Shape).Idx → EReal) (h : (⟨1, ![N]⟩ : Shape).ShapeCasts ⟨2, ![1, N]⟩) :
    (fun j : (⟨1, ![N]⟩ : Shape).Idx => shapeCast ⟨2, ![1, N]⟩ b h (ix2 0 (j 0))) = b :=
  funext fun j => (recast_row b h (j 0)).trans (congrArg b (eq_ix1 j).symm)

/-- AFTER REGION 0 its result holds the first layer's features. -/
theorem w2_v23 : W2 m ρ c (Proc.devRef .tc main_v23) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg15)) (m ((c : Thread nD τ).loc main_arg16)) := by
  refine (W2_arr m ρ c 5).trans ((Region0.final (V1 m ρ) c).trans ?_)
  unfold Region0.G
  rw [v1_v21, v1_v11, v1_arg2, v1_arg3, v1_v22, row_recast]
  rfl

/-! ## Region 1's entry -/

theorem w2_keep (b : Ref sig .tc) (hb : ∀ w, Pipeline.arrRef spec0 w ≠ b) :
    W2 m ρ c (Proc.devRef .tc b) = W1 m ρ c (Proc.devRef .tc b) := W2_of_ne m ρ c b hb

theorem w2_v1 : W2 m ρ c (Proc.devRef .tc main_v1) = src (m ((c : Thread nD τ).loc main_arg16)) := by
  refine (W2_of_ne m ρ c main_v1 (by decide)).trans ?_
  show StableHlo.after hostOps0 (W0 m ρ c) (Proc.devRef .tc main_v1) = _
  dsimp only [hostOps0]
  after_results_simp <;> rfl

theorem w2_v3 : W2 m ρ c (Proc.devRef .tc main_v3) = dst (m ((c : Thread nD τ).loc main_arg16)) := by
  refine (W2_of_ne m ρ c main_v3 (by decide)).trans ?_
  show StableHlo.after hostOps0 (W0 m ρ c) (Proc.devRef .tc main_v3) = _
  dsimp only [hostOps0]
  after_results_simp <;> rfl

theorem w2_arg5 : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  dsimp only [hostOps0]
  after_results_simp <;> rfl

theorem w2_arg6 : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  dsimp only [hostOps0]
  after_results_simp <;> rfl

theorem w2_arg7 : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  dsimp only [hostOps0]
  after_results_simp <;> rfl

theorem w2_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  dsimp only [hostOps0]
  after_results_simp <;> rfl

theorem w2_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  dsimp only [hostOps0]
  after_results_simp <;> rfl

theorem w2_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  dsimp only [hostOps0]
  after_results_simp <;> rfl

theorem w2_arg11 : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  dsimp only [hostOps0]
  after_results_simp <;> rfl

theorem w2_arg12 : W2 m ρ c (Proc.devRef .tc main_arg12) = (m ((c : Thread nD τ).loc main_arg12)) := by
  refine (W2_of_ne m ρ c main_arg12 (by decide)).trans ?_
  show StableHlo.after hostOps0 (W0 m ρ c) (Proc.devRef .tc main_arg12) = _
  dsimp only [hostOps0]
  after_results_simp <;> rfl

theorem w2_arg13 : W2 m ρ c (Proc.devRef .tc main_arg13) = (m ((c : Thread nD τ).loc main_arg13)) := by
  refine (W2_of_ne m ρ c main_arg13 (by decide)).trans ?_
  show StableHlo.after hostOps0 (W0 m ρ c) (Proc.devRef .tc main_arg13) = _
  dsimp only [hostOps0]
  after_results_simp <;> rfl

theorem w2_arg14 : W2 m ρ c (Proc.devRef .tc main_arg14) = (m ((c : Thread nD τ).loc main_arg14)) := by
  refine (W2_of_ne m ρ c main_arg14 (by decide)).trans ?_
  show StableHlo.after hostOps0 (W0 m ρ c) (Proc.devRef .tc main_arg14) = _
  dsimp only [hostOps0]
  after_results_simp <;> rfl

theorem w2_arg17 : W2 m ρ c (Proc.devRef .tc main_arg17) = (m ((c : Thread nD τ).loc main_arg17)) := by
  refine (W2_of_ne m ρ c main_arg17 (by decide)).trans ?_
  show StableHlo.after hostOps0 (W0 m ρ c) (Proc.devRef .tc main_arg17) = _
  dsimp only [hostOps0]
  after_results_simp <;> rfl

theorem v3_v23 : V3 m ρ c main_v23 = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg15)) (m ((c : Thread nD τ).loc main_arg16)) := by
  show StableHlo.after hostOps1 (W2 m ρ c) (Proc.devRef .tc main_v23) = _
  dsimp only [hostOps1]
  after_results_simp <;> exact w2_v23 m ρ c

theorem v3_v33 : V3 m ρ c main_v33 = aggOf (m ((c : Thread nD τ).loc main_arg16)) (h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg15)) (m ((c : Thread nD τ).loc main_arg16))) := by
  show StableHlo.after hostOps1 (W2 m ρ c) (Proc.devRef .tc main_v33) = _
  dsimp only [hostOps1]
  after_results_simp
  rw [w2_v1, w2_v3, w2_v23]
  rfl

theorem v3_v34 : V3 m ρ c main_v34 = shapeCast S1x64 (m ((c : Thread nD τ).loc main_arg7)) shapeCasts_S64_S1x64 := by
  show StableHlo.after hostOps1 (W2 m ρ c) (Proc.devRef .tc main_v34) = _
  dsimp only [hostOps1]
  after_results_simp
  rw [w2_arg7]
  rfl

theorem v3_arg5 : V3 m ρ c main_arg5 = (m ((c : Thread nD τ).loc main_arg5)) := by
  show StableHlo.after hostOps1 (W2 m ρ c) (Proc.devRef .tc main_arg5) = _
  dsimp only [hostOps1]
  after_results_simp <;> exact w2_arg5 m ρ c

theorem v3_arg6 : V3 m ρ c main_arg6 = (m ((c : Thread nD τ).loc main_arg6)) := by
  show StableHlo.after hostOps1 (W2 m ρ c) (Proc.devRef .tc main_arg6) = _
  dsimp only [hostOps1]
  after_results_simp <;> exact w2_arg6 m ρ c

theorem v3_arg8 : V3 m ρ c main_arg8 = (m ((c : Thread nD τ).loc main_arg8)) := by
  show StableHlo.after hostOps1 (W2 m ρ c) (Proc.devRef .tc main_arg8) = _
  dsimp only [hostOps1]
  after_results_simp <;> exact w2_arg8 m ρ c

/-- AFTER REGION 1 its result holds the second layer's features, projected. -/
theorem w4_v35 : W4 m ρ c (Proc.devRef .tc main_v35)
    = proj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg15)) (m ((c : Thread nD τ).loc main_arg16)) := by
  refine (W4_arr m ρ c 6).trans ((Region1.final (V3 m ρ) c).trans ?_)
  unfold Region1.G
  rw [v3_v33, v3_v23, v3_arg5, v3_arg6, v3_v34, v3_arg8, row_recast]
  rfl

/-! ## Region 2's entry -/

theorem w4_arg9 : W4 m ρ c (Proc.devRef .tc main_arg9) = (m ((c : Thread nD τ).loc main_arg9)) := by
  refine (W4_of_ne m ρ c main_arg9 (by decide)).trans ?_
  show StableHlo.after hostOps1 (W2 m ρ c) (Proc.devRef .tc main_arg9) = _
  dsimp only [hostOps1]
  after_results_simp <;> exact w2_arg9 m ρ c

theorem w4_arg10 : W4 m ρ c (Proc.devRef .tc main_arg10) = (m ((c : Thread nD τ).loc main_arg10)) := by
  refine (W4_of_ne m ρ c main_arg10 (by decide)).trans ?_
  show StableHlo.after hostOps1 (W2 m ρ c) (Proc.devRef .tc main_arg10) = _
  dsimp only [hostOps1]
  after_results_simp <;> exact w2_arg10 m ρ c

theorem w4_arg11 : W4 m ρ c (Proc.devRef .tc main_arg11) = (m ((c : Thread nD τ).loc main_arg11)) := by
  refine (W4_of_ne m ρ c main_arg11 (by decide)).trans ?_
  show StableHlo.after hostOps1 (W2 m ρ c) (Proc.devRef .tc main_arg11) = _
  dsimp only [hostOps1]
  after_results_simp <;> exact w2_arg11 m ρ c

theorem w4_arg12 : W4 m ρ c (Proc.devRef .tc main_arg12) = (m ((c : Thread nD τ).loc main_arg12)) := by
  refine (W4_of_ne m ρ c main_arg12 (by decide)).trans ?_
  show StableHlo.after hostOps1 (W2 m ρ c) (Proc.devRef .tc main_arg12) = _
  dsimp only [hostOps1]
  after_results_simp <;> exact w2_arg12 m ρ c

theorem w4_arg13 : W4 m ρ c (Proc.devRef .tc main_arg13) = (m ((c : Thread nD τ).loc main_arg13)) := by
  refine (W4_of_ne m ρ c main_arg13 (by decide)).trans ?_
  show StableHlo.after hostOps1 (W2 m ρ c) (Proc.devRef .tc main_arg13) = _
  dsimp only [hostOps1]
  after_results_simp <;> exact w2_arg13 m ρ c

theorem w4_arg14 : W4 m ρ c (Proc.devRef .tc main_arg14) = (m ((c : Thread nD τ).loc main_arg14)) := by
  refine (W4_of_ne m ρ c main_arg14 (by decide)).trans ?_
  show StableHlo.after hostOps1 (W2 m ρ c) (Proc.devRef .tc main_arg14) = _
  dsimp only [hostOps1]
  after_results_simp <;> exact w2_arg14 m ρ c

theorem w4_arg17 : W4 m ρ c (Proc.devRef .tc main_arg17) = (m ((c : Thread nD τ).loc main_arg17)) := by
  refine (W4_of_ne m ρ c main_arg17 (by decide)).trans ?_
  show StableHlo.after hostOps1 (W2 m ρ c) (Proc.devRef .tc main_arg17) = _
  dsimp only [hostOps1]
  after_results_simp <;> exact w2_arg17 m ρ c

theorem v5_v38 : V5 m ρ c main_v38
    = poolOf (m ((c : Thread nD τ).loc main_arg17)) (proj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg15)) (m ((c : Thread nD τ).loc main_arg16))) := by
  show StableHlo.after hostOps2 (W4 m ρ c) (Proc.devRef .tc main_v38) = _
  dsimp only [hostOps2]
  after_results_simp
  rw [w4_arg17, w4_v35]
  rfl

theorem v5_v39 : V5 m ρ c main_v39 = shapeCast S1x128 (m ((c : Thread nD τ).loc main_arg10)) shapeCasts_S128_S1x128 := by
  show StableHlo.after hostOps2 (W4 m ρ c) (Proc.devRef .tc main_v39) = _
  dsimp only [hostOps2]
  after_results_simp
  rw [w4_arg10]
  rfl

theorem v5_v40 : V5 m ρ c main_v40 = shapeCast S1x32 (m ((c : Thread nD τ).loc main_arg12)) shapeCasts_S32_S1x32 := by
  show StableHlo.after hostOps2 (W4 m ρ c) (Proc.devRef .tc main_v40) = _
  dsimp only [hostOps2]
  after_results_simp
  rw [w4_arg12]
  rfl

theorem v5_v41 : V5 m ρ c main_v41 = shapeCast S1x1 (m ((c : Thread nD τ).loc main_arg14)) shapeCasts_S1_S1x1 := by
  show StableHlo.after hostOps2 (W4 m ρ c) (Proc.devRef .tc main_v41) = _
  dsimp only [hostOps2]
  after_results_simp
  rw [w4_arg14]
  rfl

theorem v5_arg9 : V5 m ρ c main_arg9 = (m ((c : Thread nD τ).loc main_arg9)) := by
  show StableHlo.after hostOps2 (W4 m ρ c) (Proc.devRef .tc main_arg9) = _
  dsimp only [hostOps2]
  after_results_simp <;> exact w4_arg9 m ρ c

theorem v5_arg11 : V5 m ρ c main_arg11 = (m ((c : Thread nD τ).loc main_arg11)) := by
  show StableHlo.after hostOps2 (W4 m ρ c) (Proc.devRef .tc main_arg11) = _
  dsimp only [hostOps2]
  after_results_simp <;> exact w4_arg11 m ρ c

theorem v5_arg13 : V5 m ρ c main_arg13 = (m ((c : Thread nD τ).loc main_arg13)) := by
  show StableHlo.after hostOps2 (W4 m ρ c) (Proc.devRef .tc main_arg13) = _
  dsimp only [hostOps2]
  after_results_simp <;> exact w4_arg13 m ρ c

/-- AFTER REGION 2 the result buffer holds the network's result, as ONE function of the eighteen arguments. -/
theorem w6_v42 : W6 m ρ c (Proc.devRef .tc main_v42)
    = total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 7).trans ((Region2.final (V5 m ρ) c).trans ?_)
  unfold Region2.G
  rw [v5_v38, v5_arg9, v5_v39, v5_arg11, v5_v40, v5_arg13, v5_v41, row_recast, row_recast, row_recast]
  rfl

end Cert.KernelIdeal.Total

end
-- ==== Proof.RefTotal.lean ====
import proofs.«134033_j25125558682224_1_alg».proof.Proof.RefRun
import proofs.«134033_j25125558682224_1_alg».proof.Proof.Glue

set_option maxRecDepth 16384

noncomputable section

namespace Cert.ReferenceIdeal.RefTotal

open Cert.ReferenceIdeal Cert.ReferenceIdeal.Gen
open Idealize.ShloMosaic Idealize.ShloMosaic.TcCoe Idealize.SL.Sem Idealize.ShloMosaic.StableHlo
open Cert.ReferenceIdeal.ValueP (ops main_eq ops_sub scopedRefs_eq scopedSems_eq)
open Cert.Gcn.Layer Cert.Gcn.Dense
open Cert.ReferenceIdeal.Glue (feat aggOf poolOf src dst h1 proj total)

/-- Running a list of operations in two parts. -/
theorem after_append (l1 l2 : List (HloOp τ sig (Elt Ideal))) (V : Valuation τ sig (Elt Ideal)) :
    after (l1 ++ l2) V = after l2 (after l1 V) := by
  induction l1 generalizing V with
  | nil => rfl
  | cons a l ih => exact ih _

/-- The reference's operations, cut where the kernel's program has its segment boundaries. -/
abbrev sA : List (HloOp τ sig (Elt Ideal)) := (ops (F := Ideal)).take 14
abbrev sB : List (HloOp τ sig (Elt Ideal)) := ((ops (F := Ideal)).drop 14).take 13
abbrev sC : List (HloOp τ sig (Elt Ideal)) := ((ops (F := Ideal)).drop 27).take 13
abbrev sD : List (HloOp τ sig (Elt Ideal)) := ((ops (F := Ideal)).drop 40).take 13
abbrev sE : List (HloOp τ sig (Elt Ideal)) := ((ops (F := Ideal)).drop 53).take 13
abbrev sF : List (HloOp τ sig (Elt Ideal)) := ((ops (F := Ideal)).drop 66).take 5
abbrev sG : List (HloOp τ sig (Elt Ideal)) := (ops (F := Ideal)).drop 71

theorem ops_cut : (ops (F := Ideal)) = sA ++ (sB ++ (sC ++ (sD ++ (sE ++ (sF ++ sG))))) := by
  simp only [sA, sB, sC, sD, sE, sF, sG, ops, List.take, List.drop, List.cons_append, List.nil_append]

variable (U : Valuation τ sig (Elt Ideal))

/-! ## Each stretch, from ANY entry contents `U` -/

/-- The node features. -/
theorem a_v11 : after sA U (Proc.devRef .tc main_v11) = feat (U (Proc.devRef .tc main_arg0)) (U (Proc.devRef .tc main_arg1)) (U (Proc.devRef .tc main_arg15)) := by
  simp only [sA, ops, List.take, List.drop]
  after_results_simp <;> rfl

theorem a_v1 : after sA U (Proc.devRef .tc main_v1) = src (U (Proc.devRef .tc main_arg16)) := by
  simp only [sA, ops, List.take, List.drop]
  after_results_simp <;> rfl

theorem a_v3 : after sA U (Proc.devRef .tc main_v3) = dst (U (Proc.devRef .tc main_arg16)) := by
  simp only [sA, ops, List.take, List.drop]
  after_results_simp <;> rfl

theorem a_arg2 : after sA U (Proc.devRef .tc main_arg2) = U (Proc.devRef .tc main_arg2) := by
  simp only [sA, ops, List.take, List.drop]
  after_results_simp <;> rfl

theorem a_arg3 : after sA U (Proc.devRef .tc main_arg3) = U (Proc.devRef .tc main_arg3) := by
  simp only [sA, ops, List.take, List.drop]
  after_results_simp <;> rfl

theorem a_arg4 : after sA U (Proc.devRef .tc main_arg4) = U (Proc.devRef .tc main_arg4) := by
  simp only [sA, ops, List.take, List.drop]
  after_results_simp <;> rfl

theorem a_arg5 : after sA U (Proc.devRef .tc main_arg5) = U (Proc.devRef .tc main_arg5) := by
  simp only [sA, ops, List.take, List.drop]
  after_results_simp <;> rfl

theorem a_arg6 : after sA U (Proc.devRef .tc main_arg6) = U (Proc.devRef .tc main_arg6) := by
  simp only [sA, ops, List.take, List.drop]
  after_results_simp <;> rfl

theorem a_arg7 : after sA U (Proc.devRef .tc main_arg7) = U (Proc.devRef .tc main_arg7) := by
  simp only [sA, ops, List.take, List.drop]
  after_results_simp <;> rfl

theorem a_arg8 : after sA U (Proc.devRef .tc main_arg8) = U (Proc.devRef .tc main_arg8) := by
  simp only [sA, ops, List.take, List.drop]
  after_results_simp <;> rfl

theorem a_arg9 : after sA U (Proc.devRef .tc main_arg9) = U (Proc.devRef .tc main_arg9) := by
  simp only [sA, ops, List.take, List.drop]
  after_results_simp <;> rfl

theorem a_arg10 : after sA U (Proc.devRef .tc main_arg10) = U (Proc.devRef .tc main_arg10) := by
  simp only [sA, ops, List.take, List.drop]
  after_results_simp <;> rfl

theorem a_arg11 : after sA U (Proc.devRef .tc main_arg11) = U (Proc.devRef .tc main_arg11) := by
  simp only [sA, ops, List.take, List.drop]
  after_results_simp <;> rfl

theorem a_arg12 : after sA U (Proc.devRef .tc main_arg12) = U (Proc.devRef .tc main_arg12) := by
  simp only [sA, ops, List.take, List.drop]
  after_results_simp <;> rfl

theorem a_arg13 : after sA U (Proc.devRef .tc main_arg13) = U (Proc.devRef .tc main_arg13) := by
  simp only [sA, ops, List.take, List.drop]
  after_results_simp <;> rfl

theorem a_arg14 : after sA U (Proc.devRef .tc main_arg14) = U (Proc.devRef .tc main_arg14) := by
  simp only [sA, ops, List.take, List.drop]
  after_results_simp <;> rfl

theorem a_arg17 : after sA U (Proc.devRef .tc main_arg17) = U (Proc.devRef .tc main_arg17) := by
  simp only [sA, ops, List.take, List.drop]
  after_results_simp <;> rfl

/-- The first aggregation. -/
theorem b_v21 (x16 : IVec S2x1600000 32) (h : FVec Ideal S100000x64 .f32) (e11 : U (Proc.devRef .tc main_v11) = h)
    (e1 : U (Proc.devRef .tc main_v1) = src x16) (e3 : U (Proc.devRef .tc main_v3) = dst x16) :
    after sB U (Proc.devRef .tc main_v21) = aggOf x16 h := by
  simp only [sB, ops, List.take, List.drop]
  after_results_simp
  rw [e11, e1, e3]
  rfl

theorem b_v11 : after sB U (Proc.devRef .tc main_v11) = U (Proc.devRef .tc main_v11) := by
  simp only [sB, ops, List.take, List.drop]
  after_results_simp <;> rfl

theorem b_v1 : after sB U (Proc.devRef .tc main_v1) = U (Proc.devRef .tc main_v1) := by
  simp only [sB, ops, List.take, List.drop]
  after_results_simp <;> rfl

theorem b_v3 : after sB U (Proc.devRef .tc main_v3) = U (Proc.devRef .tc main_v3) := by
  simp only [sB, ops, List.take, List.drop]
  after_results_simp <;> rfl

theorem b_arg2 : after sB U (Proc.devRef .tc main_arg2) = U (Proc.devRef .tc main_arg2) := by
  simp only [sB, ops, List.take, List.drop]
  after_results_simp <;> rfl

theorem b_arg3 : after sB U (Proc.devRef .tc main_arg3) = U (Proc.devRef .tc main_arg3) := by
  simp only [sB, ops, List.take, List.drop]
  after_results_simp <;> rfl

theorem b_arg4 : after sB U (Proc.devRef .tc main_arg4) = U (Proc.devRef .tc main_arg4) := by
  simp only [sB, ops, List.take, List.drop]
  after_results_simp <;> rfl

theorem b_arg5 : after sB U (Proc.devRef .tc main_arg5) = U (Proc.devRef .tc main_arg5) := by
  simp only [sB, ops, List.take, List.drop]
  after_results_simp <;> rfl

theorem b_arg6 : after sB U (Proc.devRef .tc main_arg6) = U (Proc.devRef .tc main_arg6) := by
  simp only [sB, ops, List.take, List.drop]
  after_results_simp <;> rfl

theorem b_arg7 : after sB U (Proc.devRef .tc main_arg7) = U (Proc.devRef .tc main_arg7) := by
  simp only [sB, ops, List.take, List.drop]
  after_results_simp <;> rfl

theorem b_arg8 : after sB U (Proc.devRef .tc main_arg8) = U (Proc.devRef .tc main_arg8) := by
  simp only [sB, ops, List.take, List.drop]
  after_results_simp <;> rfl

theorem b_arg9 : after sB U (Proc.devRef .tc main_arg9) = U (Proc.devRef .tc main_arg9) := by
  simp only [sB, ops, List.take, List.drop]
  after_results_simp <;> rfl

theorem b_arg10 : after sB U (Proc.devRef .tc main_arg10) = U (Proc.devRef .tc main_arg10) := by
  simp only [sB, ops, List.take, List.drop]
  after_results_simp <;> rfl

theorem b_arg11 : after sB U (Proc.devRef .tc main_arg11) = U (Proc.devRef .tc main_arg11) := by
  simp only [sB, ops, List.take, List.drop]
  after_results_simp <;> rfl

theorem b_arg12 : after sB U (Proc.devRef .tc main_arg12) = U (Proc.devRef .tc main_arg12) := by
  simp only [sB, ops, List.take, List.drop]
  after_results_simp <;> rfl

theorem b_arg13 : after sB U (Proc.devRef .tc main_arg13) = U (Proc.devRef .tc main_arg13) := by
  simp only [sB, ops, List.take, List.drop]
  after_results_simp <;> rfl

theorem b_arg14 : after sB U (Proc.devRef .tc main_arg14) = U (Proc.devRef .tc main_arg14) := by
  simp only [sB, ops, List.take, List.drop]
  after_results_simp <;> rfl

theorem b_arg17 : after sB U (Proc.devRef .tc main_arg17) = U (Proc.devRef .tc main_arg17) := by
  simp only [sB, ops, List.take, List.drop]
  after_results_simp <;> rfl

/-- The first layer's update. -/
theorem c_v32 (agg h : FVec Ideal S100000x64 .f32) (x2 x3 : FVec Ideal S64x64 .f32) (x4 : FVec Ideal S64 .f32)
    (e21 : U (Proc.devRef .tc main_v21) = agg) (e11 : U (Proc.devRef .tc main_v11) = h)
    (e2 : U (Proc.devRef .tc main_arg2) = x2) (e3 : U (Proc.devRef .tc main_arg3) = x3) (e4 : U (Proc.devRef .tc main_arg4) = x4) :
    after sC U (Proc.devRef .tc main_v32) = upd agg h x2 x3 x4 := by
  simp only [sC, ops, List.take, List.drop]
  after_results_simp
  rw [e21, e11, e2, e3, e4]
  exact upd_host dot_S100000x64_S64x64_S100000x64_1_0_0_1_n_n rfl agg h x2 x3 x4 _ _ _

theorem c_v1 : after sC U (Proc.devRef .tc main_v1) = U (Proc.devRef .tc main_v1) := by
  simp only [sC, ops, List.take, List.drop]
  after_results_simp <;> rfl

theorem c_v3 : after sC U (Proc.devRef .tc main_v3) = U (Proc.devRef .tc main_v3) := by
  simp only [sC, ops, List.take, List.drop]
  after_results_simp <;> rfl

theorem c_arg5 : after sC U (Proc.devRef .tc main_arg5) = U (Proc.devRef .tc main_arg5) := by
  simp only [sC, ops, List.take, List.drop]
  after_results_simp <;> rfl

theorem c_arg6 : after sC U (Proc.devRef .tc main_arg6) = U (Proc.devRef .tc main_arg6) := by
  simp only [sC, ops, List.take, List.drop]
  after_results_simp <;> rfl

theorem c_arg7 : after sC U (Proc.devRef .tc main_arg7) = U (Proc.devRef .tc main_arg7) := by
  simp only [sC, ops, List.take, List.drop]
  after_results_simp <;> rfl

theorem c_arg8 : after sC U (Proc.devRef .tc main_arg8) = U (Proc.devRef .tc main_arg8) := by
  simp only [sC, ops, List.take, List.drop]
  after_results_simp <;> rfl

theorem c_arg9 : after sC U (Proc.devRef .tc main_arg9) = U (Proc.devRef .tc main_arg9) := by
  simp only [sC, ops, List.take, List.drop]
  after_results_simp <;> rfl

theorem c_arg10 : after sC U (Proc.devRef .tc main_arg10) = U (Proc.devRef .tc main_arg10) := by
  simp only [sC, ops, List.take, List.drop]
  after_results_simp <;> rfl

theorem c_arg11 : after sC U (Proc.devRef .tc main_arg11) = U (Proc.devRef .tc main_arg11) := by
  simp only [sC, ops, List.take, List.drop]
  after_results_simp <;> rfl

theorem c_arg12 : after sC U (Proc.devRef .tc main_arg12) = U (Proc.devRef .tc main_arg12) := by
  simp only [sC, ops, List.take, List.drop]
  after_results_simp <;> rfl

theorem c_arg13 : after sC U (Proc.devRef .tc main_arg13) = U (Proc.devRef .tc main_arg13) := by
  simp only [sC, ops, List.take, List.drop]
  after_results_simp <;> rfl

theorem c_arg14 : after sC U (Proc.devRef .tc main_arg14) = U (Proc.devRef .tc main_arg14) := by
  simp only [sC, ops, List.take, List.drop]
  after_results_simp <;> rfl

theorem c_arg17 : after sC U (Proc.devRef .tc main_arg17) = U (Proc.devRef .tc main_arg17) := by
  simp only [sC, ops, List.take, List.drop]
  after_results_simp <;> rfl

/-- The second aggregation. -/
theorem d_v42 (x16 : IVec S2x1600000 32) (h : FVec Ideal S100000x64 .f32) (e32 : U (Proc.devRef .tc main_v32) = h)
    (e1 : U (Proc.devRef .tc main_v1) = src x16) (e3 : U (Proc.devRef .tc main_v3) = dst x16) :
    after sD U (Proc.devRef .tc main_v42) = aggOf x16 h := by
  simp only [sD, ops, List.take, List.drop]
  after_results_simp
  rw [e32, e1, e3]
  rfl

theorem d_v32 : after sD U (Proc.devRef .tc main_v32) = U (Proc.devRef .tc main_v32) := by
  simp only [sD, ops, List.take, List.drop]
  after_results_simp <;> rfl

theorem d_arg5 : after sD U (Proc.devRef .tc main_arg5) = U (Proc.devRef .tc main_arg5) := by
  simp only [sD, ops, List.take, List.drop]
  after_results_simp <;> rfl

theorem d_arg6 : after sD U (Proc.devRef .tc main_arg6) = U (Proc.devRef .tc main_arg6) := by
  simp only [sD, ops, List.take, List.drop]
  after_results_simp <;> rfl

theorem d_arg7 : after sD U (Proc.devRef .tc main_arg7) = U (Proc.devRef .tc main_arg7) := by
  simp only [sD, ops, List.take, List.drop]
  after_results_simp <;> rfl

theorem d_arg8 : after sD U (Proc.devRef .tc main_arg8) = U (Proc.devRef .tc main_arg8) := by
  simp only [sD, ops, List.take, List.drop]
  after_results_simp <;> rfl

theorem d_arg9 : after sD U (Proc.devRef .tc main_arg9) = U (Proc.devRef .tc main_arg9) := by
  simp only [sD, ops, List.take, List.drop]
  after_results_simp <;> rfl

theorem d_arg10 : after sD U (Proc.devRef .tc main_arg10) = U (Proc.devRef .tc main_arg10) := by
  simp only [sD, ops, List.take, List.drop]
  after_results_simp <;> rfl

theorem d_arg11 : after sD U (Proc.devRef .tc main_arg11) = U (Proc.devRef .tc main_arg11) := by
  simp only [sD, ops, List.take, List.drop]
  after_results_simp <;> rfl

theorem d_arg12 : after sD U (Proc.devRef .tc main_arg12) = U (Proc.devRef .tc main_arg12) := by
  simp only [sD, ops, List.take, List.drop]
  after_results_simp <;> rfl

theorem d_arg13 : after sD U (Proc.devRef .tc main_arg13) = U (Proc.devRef .tc main_arg13) := by
  simp only [sD, ops, List.take, List.drop]
  after_results_simp <;> rfl

theorem d_arg14 : after sD U (Proc.devRef .tc main_arg14) = U (Proc.devRef .tc main_arg14) := by
  simp only [sD, ops, List.take, List.drop]
  after_results_simp <;> rfl

theorem d_arg17 : after sD U (Proc.devRef .tc main_arg17) = U (Proc.devRef .tc main_arg17) := by
  simp only [sD, ops, List.take, List.drop]
  after_results_simp <;> rfl

/-- The second layer's update. -/
theorem e_v53 (agg h : FVec Ideal S100000x64 .f32) (x5 x6 : FVec Ideal S64x64 .f32) (x7 : FVec Ideal S64 .f32)
    (e42 : U (Proc.devRef .tc main_v42) = agg) (e32 : U (Proc.devRef .tc main_v32) = h)
    (e5 : U (Proc.devRef .tc main_arg5) = x5) (e6 : U (Proc.devRef .tc main_arg6) = x6) (e7 : U (Proc.devRef .tc main_arg7) = x7) :
    after sE U (Proc.devRef .tc main_v53) = upd agg h x5 x6 x7 := by
  simp only [sE, ops, List.take, List.drop]
  after_results_simp
  rw [e42, e32, e5, e6, e7]
  exact upd_host dot_S100000x64_S64x64_S100000x64_1_0_0_1_n_n rfl agg h x5 x6 x7 _ _ _

theorem e_arg8 : after sE U (Proc.devRef .tc main_arg8) = U (Proc.devRef .tc main_arg8) := by
  simp only [sE, ops, List.take, List.drop]
  after_results_simp <;> rfl

theorem e_arg9 : after sE U (Proc.devRef .tc main_arg9) = U (Proc.devRef .tc main_arg9) := by
  simp only [sE, ops, List.take, List.drop]
  after_results_simp <;> rfl

theorem e_arg10 : after sE U (Proc.devRef .tc main_arg10) = U (Proc.devRef .tc main_arg10) := by
  simp only [sE, ops, List.take, List.drop]
  after_results_simp <;> rfl

theorem e_arg11 : after sE U (Proc.devRef .tc main_arg11) = U (Proc.devRef .tc main_arg11) := by
  simp only [sE, ops, List.take, List.drop]
  after_results_simp <;> rfl

theorem e_arg12 : after sE U (Proc.devRef .tc main_arg12) = U (Proc.devRef .tc main_arg12) := by
  simp only [sE, ops, List.take, List.drop]
  after_results_simp <;> rfl

theorem e_arg13 : after sE U (Proc.devRef .tc main_arg13) = U (Proc.devRef .tc main_arg13) := by
  simp only [sE, ops, List.take, List.drop]
  after_results_simp <;> rfl

theorem e_arg14 : after sE U (Proc.devRef .tc main_arg14) = U (Proc.devRef .tc main_arg14) := by
  simp only [sE, ops, List.take, List.drop]
  after_results_simp <;> rfl

theorem e_arg17 : after sE U (Proc.devRef .tc main_arg17) = U (Proc.devRef .tc main_arg17) := by
  simp only [sE, ops, List.take, List.drop]
  after_results_simp <;> rfl

/-- The projection and the pooling. -/
theorem f_v57 (x17 : IVec S100000 32) (h : FVec Ideal S100000x64 .f32) (x8 : FVec Ideal S64x64 .f32)
    (e53 : U (Proc.devRef .tc main_v53) = h) (e8 : U (Proc.devRef .tc main_arg8) = x8) (e17 : U (Proc.devRef .tc main_arg17) = x17) :
    after sF U (Proc.devRef .tc main_v57) = poolOf x17 (prod h x8) := by
  simp only [sF, ops, List.take, List.drop]
  after_results_simp
  rw [e53, e8, e17, dotGeneral_eq_prod dot_S100000x64_S64x64_S100000x64_1_0_0_1_n_n rfl]
  rfl

theorem f_arg9 : after sF U (Proc.devRef .tc main_arg9) = U (Proc.devRef .tc main_arg9) := by
  simp only [sF, ops, List.take, List.drop]
  after_results_simp <;> rfl

theorem f_arg10 : after sF U (Proc.devRef .tc main_arg10) = U (Proc.devRef .tc main_arg10) := by
  simp only [sF, ops, List.take, List.drop]
  after_results_simp <;> rfl

theorem f_arg11 : after sF U (Proc.devRef .tc main_arg11) = U (Proc.devRef .tc main_arg11) := by
  simp only [sF, ops, List.take, List.drop]
  after_results_simp <;> rfl

theorem f_arg12 : after sF U (Proc.devRef .tc main_arg12) = U (Proc.devRef .tc main_arg12) := by
  simp only [sF, ops, List.take, List.drop]
  after_results_simp <;> rfl

theorem f_arg13 : after sF U (Proc.devRef .tc main_arg13) = U (Proc.devRef .tc main_arg13) := by
  simp only [sF, ops, List.take, List.drop]
  after_results_simp <;> rfl

theorem f_arg14 : after sF U (Proc.devRef .tc main_arg14) = U (Proc.devRef .tc main_arg14) := by
  simp only [sF, ops, List.take, List.drop]
  after_results_simp <;> rfl

/-- The read-out. -/
theorem g_v76 (g : FVec Ideal S2048x64 .f32) (x9 : FVec Ideal S64x128 .f32) (x10 : FVec Ideal S128 .f32)
    (x11 : FVec Ideal S128x32 .f32) (x12 : FVec Ideal S32 .f32) (x13 : FVec Ideal S32x1 .f32) (x14 : FVec Ideal S1 .f32)
    (e57 : U (Proc.devRef .tc main_v57) = g) (e9 : U (Proc.devRef .tc main_arg9) = x9) (e10 : U (Proc.devRef .tc main_arg10) = x10)
    (e11 : U (Proc.devRef .tc main_arg11) = x11) (e12 : U (Proc.devRef .tc main_arg12) = x12) (e13 : U (Proc.devRef .tc main_arg13) = x13)
    (e14 : U (Proc.devRef .tc main_arg14) = x14) :
    after sG U (Proc.devRef .tc main_v76) = readout g x9 x10 x11 x12 x13 x14 := by
  simp only [sG, ops, List.take, List.drop]
  after_results_simp
  rw [e57, e9, e10, e11, e12, e13, e14]
  exact readout_host dot_S2048x64_S64x128_S2048x128_1_0_0_1_n_n rfl dot_S2048x128_S128x32_S2048x32_1_0_0_1_n_n rfl
    dot_S2048x32_S32x1_S2048x1_1_0_0_1_n_n rfl g x9 x10 x11 x12 x13 x14 bcast_S_S2048x64
    bcast_S128_S1x128_1 bcast_S1x128_S2048x128_0_1 bcast_S_S2048x128 bcast_S32_S1x32_1 bcast_S1x32_S2048x32_0_1
    bcast_S_S2048x32 bcast_S1_S1x1_1 bcast_S1x1_S2048x1_0_1

/-! ## The buffers at each cut, from the launch memory -/

variable (m : (ℓ : Loc nD τ sig) → Buf (Elt Ideal) ℓ) (c : Dev nD)

abbrev U0 : Valuation τ sig (Elt Ideal) := launchContents m c
abbrev U1 : Valuation τ sig (Elt Ideal) := after sA (U0 m c)
abbrev U2 : Valuation τ sig (Elt Ideal) := after sB (U1 m c)
abbrev U3 : Valuation τ sig (Elt Ideal) := after sC (U2 m c)
abbrev U4 : Valuation τ sig (Elt Ideal) := after sD (U3 m c)
abbrev U5 : Valuation τ sig (Elt Ideal) := after sE (U4 m c)
abbrev U6 : Valuation τ sig (Elt Ideal) := after sF (U5 m c)

theorem u1_arg2 : U1 m c (Proc.devRef .tc main_arg2) = (m ((c.tc : Thread nD τ).loc main_arg2)) := a_arg2 _
theorem u1_arg3 : U1 m c (Proc.devRef .tc main_arg3) = (m ((c.tc : Thread nD τ).loc main_arg3)) := a_arg3 _
theorem u1_arg4 : U1 m c (Proc.devRef .tc main_arg4) = (m ((c.tc : Thread nD τ).loc main_arg4)) := a_arg4 _
theorem u1_arg5 : U1 m c (Proc.devRef .tc main_arg5) = (m ((c.tc : Thread nD τ).loc main_arg5)) := a_arg5 _
theorem u1_arg6 : U1 m c (Proc.devRef .tc main_arg6) = (m ((c.tc : Thread nD τ).loc main_arg6)) := a_arg6 _
theorem u1_arg7 : U1 m c (Proc.devRef .tc main_arg7) = (m ((c.tc : Thread nD τ).loc main_arg7)) := a_arg7 _
theorem u1_arg8 : U1 m c (Proc.devRef .tc main_arg8) = (m ((c.tc : Thread nD τ).loc main_arg8)) := a_arg8 _
theorem u1_arg9 : U1 m c (Proc.devRef .tc main_arg9) = (m ((c.tc : Thread nD τ).loc main_arg9)) := a_arg9 _
theorem u1_arg10 : U1 m c (Proc.devRef .tc main_arg10) = (m ((c.tc : Thread nD τ).loc main_arg10)) := a_arg10 _
theorem u1_arg11 : U1 m c (Proc.devRef .tc main_arg11) = (m ((c.tc : Thread nD τ).loc main_arg11)) := a_arg11 _
theorem u1_arg12 : U1 m c (Proc.devRef .tc main_arg12) = (m ((c.tc : Thread nD τ).loc main_arg12)) := a_arg12 _
theorem u1_arg13 : U1 m c (Proc.devRef .tc main_arg13) = (m ((c.tc : Thread nD τ).loc main_arg13)) := a_arg13 _
theorem u1_arg14 : U1 m c (Proc.devRef .tc main_arg14) = (m ((c.tc : Thread nD τ).loc main_arg14)) := a_arg14 _
theorem u1_arg17 : U1 m c (Proc.devRef .tc main_arg17) = (m ((c.tc : Thread nD τ).loc main_arg17)) := a_arg17 _
theorem u1_v11 : U1 m c (Proc.devRef .tc main_v11) = (feat (m ((c.tc : Thread nD τ).loc main_arg0)) (m ((c.tc : Thread nD τ).loc main_arg1)) (m ((c.tc : Thread nD τ).loc main_arg15))) := a_v11 _
theorem u1_v1 : U1 m c (Proc.devRef .tc main_v1) = src (m ((c.tc : Thread nD τ).loc main_arg16)) := a_v1 _
theorem u1_v3 : U1 m c (Proc.devRef .tc main_v3) = dst (m ((c.tc : Thread nD τ).loc main_arg16)) := a_v3 _
theorem u2_v11 : U2 m c (Proc.devRef .tc main_v11) = (feat (m ((c.tc : Thread nD τ).loc main_arg0)) (m ((c.tc : Thread nD τ).loc main_arg1)) (m ((c.tc : Thread nD τ).loc main_arg15))) := (b_v11 _).trans (u1_v11 m c)
theorem u2_v1 : U2 m c (Proc.devRef .tc main_v1) = src (m ((c.tc : Thread nD τ).loc main_arg16)) := (b_v1 _).trans (u1_v1 m c)
theorem u2_v3 : U2 m c (Proc.devRef .tc main_v3) = dst (m ((c.tc : Thread nD τ).loc main_arg16)) := (b_v3 _).trans (u1_v3 m c)
theorem u2_arg2 : U2 m c (Proc.devRef .tc main_arg2) = (m ((c.tc : Thread nD τ).loc main_arg2)) := (b_arg2 _).trans (u1_arg2 m c)
theorem u2_arg3 : U2 m c (Proc.devRef .tc main_arg3) = (m ((c.tc : Thread nD τ).loc main_arg3)) := (b_arg3 _).trans (u1_arg3 m c)
theorem u2_arg4 : U2 m c (Proc.devRef .tc main_arg4) = (m ((c.tc : Thread nD τ).loc main_arg4)) := (b_arg4 _).trans (u1_arg4 m c)
theorem u2_arg5 : U2 m c (Proc.devRef .tc main_arg5) = (m ((c.tc : Thread nD τ).loc main_arg5)) := (b_arg5 _).trans (u1_arg5 m c)
theorem u2_arg6 : U2 m c (Proc.devRef .tc main_arg6) = (m ((c.tc : Thread nD τ).loc main_arg6)) := (b_arg6 _).trans (u1_arg6 m c)
theorem u2_arg7 : U2 m c (Proc.devRef .tc main_arg7) = (m ((c.tc : Thread nD τ).loc main_arg7)) := (b_arg7 _).trans (u1_arg7 m c)
theorem u2_arg8 : U2 m c (Proc.devRef .tc main_arg8) = (m ((c.tc : Thread nD τ).loc main_arg8)) := (b_arg8 _).trans (u1_arg8 m c)
theorem u2_arg9 : U2 m c (Proc.devRef .tc main_arg9) = (m ((c.tc : Thread nD τ).loc main_arg9)) := (b_arg9 _).trans (u1_arg9 m c)
theorem u2_arg10 : U2 m c (Proc.devRef .tc main_arg10) = (m ((c.tc : Thread nD τ).loc main_arg10)) := (b_arg10 _).trans (u1_arg10 m c)
theorem u2_arg11 : U2 m c (Proc.devRef .tc main_arg11) = (m ((c.tc : Thread nD τ).loc main_arg11)) := (b_arg11 _).trans (u1_arg11 m c)
theorem u2_arg12 : U2 m c (Proc.devRef .tc main_arg12) = (m ((c.tc : Thread nD τ).loc main_arg12)) := (b_arg12 _).trans (u1_arg12 m c)
theorem u2_arg13 : U2 m c (Proc.devRef .tc main_arg13) = (m ((c.tc : Thread nD τ).loc main_arg13)) := (b_arg13 _).trans (u1_arg13 m c)
theorem u2_arg14 : U2 m c (Proc.devRef .tc main_arg14) = (m ((c.tc : Thread nD τ).loc main_arg14)) := (b_arg14 _).trans (u1_arg14 m c)
theorem u2_arg17 : U2 m c (Proc.devRef .tc main_arg17) = (m ((c.tc : Thread nD τ).loc main_arg17)) := (b_arg17 _).trans (u1_arg17 m c)
theorem u2_v21 : U2 m c (Proc.devRef .tc main_v21) = aggOf (m ((c.tc : Thread nD τ).loc main_arg16)) (feat (m ((c.tc : Thread nD τ).loc main_arg0)) (m ((c.tc : Thread nD τ).loc main_arg1)) (m ((c.tc : Thread nD τ).loc main_arg15))) := b_v21 _ _ _ (u1_v11 m c) (u1_v1 m c) (u1_v3 m c)
theorem u3_v1 : U3 m c (Proc.devRef .tc main_v1) = src (m ((c.tc : Thread nD τ).loc main_arg16)) := (c_v1 _).trans (u2_v1 m c)
theorem u3_v3 : U3 m c (Proc.devRef .tc main_v3) = dst (m ((c.tc : Thread nD τ).loc main_arg16)) := (c_v3 _).trans (u2_v3 m c)
theorem u3_arg5 : U3 m c (Proc.devRef .tc main_arg5) = (m ((c.tc : Thread nD τ).loc main_arg5)) := (c_arg5 _).trans (u2_arg5 m c)
theorem u3_arg6 : U3 m c (Proc.devRef .tc main_arg6) = (m ((c.tc : Thread nD τ).loc main_arg6)) := (c_arg6 _).trans (u2_arg6 m c)
theorem u3_arg7 : U3 m c (Proc.devRef .tc main_arg7) = (m ((c.tc : Thread nD τ).loc main_arg7)) := (c_arg7 _).trans (u2_arg7 m c)
theorem u3_arg8 : U3 m c (Proc.devRef .tc main_arg8) = (m ((c.tc : Thread nD τ).loc main_arg8)) := (c_arg8 _).trans (u2_arg8 m c)
theorem u3_arg9 : U3 m c (Proc.devRef .tc main_arg9) = (m ((c.tc : Thread nD τ).loc main_arg9)) := (c_arg9 _).trans (u2_arg9 m c)
theorem u3_arg10 : U3 m c (Proc.devRef .tc main_arg10) = (m ((c.tc : Thread nD τ).loc main_arg10)) := (c_arg10 _).trans (u2_arg10 m c)
theorem u3_arg11 : U3 m c (Proc.devRef .tc main_arg11) = (m ((c.tc : Thread nD τ).loc main_arg11)) := (c_arg11 _).trans (u2_arg11 m c)
theorem u3_arg12 : U3 m c (Proc.devRef .tc main_arg12) = (m ((c.tc : Thread nD τ).loc main_arg12)) := (c_arg12 _).trans (u2_arg12 m c)
theorem u3_arg13 : U3 m c (Proc.devRef .tc main_arg13) = (m ((c.tc : Thread nD τ).loc main_arg13)) := (c_arg13 _).trans (u2_arg13 m c)
theorem u3_arg14 : U3 m c (Proc.devRef .tc main_arg14) = (m ((c.tc : Thread nD τ).loc main_arg14)) := (c_arg14 _).trans (u2_arg14 m c)
theorem u3_arg17 : U3 m c (Proc.devRef .tc main_arg17) = (m ((c.tc : Thread nD τ).loc main_arg17)) := (c_arg17 _).trans (u2_arg17 m c)
theorem u3_v32 : U3 m c (Proc.devRef .tc main_v32) = (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16))) := c_v32 _ _ _ _ _ _ (u2_v21 m c) (u2_v11 m c) (u2_arg2 m c) (u2_arg3 m c) (u2_arg4 m c)
theorem u4_v32 : U4 m c (Proc.devRef .tc main_v32) = (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16))) := (d_v32 _).trans (u3_v32 m c)
theorem u4_arg5 : U4 m c (Proc.devRef .tc main_arg5) = (m ((c.tc : Thread nD τ).loc main_arg5)) := (d_arg5 _).trans (u3_arg5 m c)
theorem u4_arg6 : U4 m c (Proc.devRef .tc main_arg6) = (m ((c.tc : Thread nD τ).loc main_arg6)) := (d_arg6 _).trans (u3_arg6 m c)
theorem u4_arg7 : U4 m c (Proc.devRef .tc main_arg7) = (m ((c.tc : Thread nD τ).loc main_arg7)) := (d_arg7 _).trans (u3_arg7 m c)
theorem u4_arg8 : U4 m c (Proc.devRef .tc main_arg8) = (m ((c.tc : Thread nD τ).loc main_arg8)) := (d_arg8 _).trans (u3_arg8 m c)
theorem u4_arg9 : U4 m c (Proc.devRef .tc main_arg9) = (m ((c.tc : Thread nD τ).loc main_arg9)) := (d_arg9 _).trans (u3_arg9 m c)
theorem u4_arg10 : U4 m c (Proc.devRef .tc main_arg10) = (m ((c.tc : Thread nD τ).loc main_arg10)) := (d_arg10 _).trans (u3_arg10 m c)
theorem u4_arg11 : U4 m c (Proc.devRef .tc main_arg11) = (m ((c.tc : Thread nD τ).loc main_arg11)) := (d_arg11 _).trans (u3_arg11 m c)
theorem u4_arg12 : U4 m c (Proc.devRef .tc main_arg12) = (m ((c.tc : Thread nD τ).loc main_arg12)) := (d_arg12 _).trans (u3_arg12 m c)
theorem u4_arg13 : U4 m c (Proc.devRef .tc main_arg13) = (m ((c.tc : Thread nD τ).loc main_arg13)) := (d_arg13 _).trans (u3_arg13 m c)
theorem u4_arg14 : U4 m c (Proc.devRef .tc main_arg14) = (m ((c.tc : Thread nD τ).loc main_arg14)) := (d_arg14 _).trans (u3_arg14 m c)
theorem u4_arg17 : U4 m c (Proc.devRef .tc main_arg17) = (m ((c.tc : Thread nD τ).loc main_arg17)) := (d_arg17 _).trans (u3_arg17 m c)
theorem u4_v42 : U4 m c (Proc.devRef .tc main_v42) = aggOf (m ((c.tc : Thread nD τ).loc main_arg16)) (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16))) := d_v42 _ _ _ (u3_v32 m c) (u3_v1 m c) (u3_v3 m c)
theorem u5_arg8 : U5 m c (Proc.devRef .tc main_arg8) = (m ((c.tc : Thread nD τ).loc main_arg8)) := (e_arg8 _).trans (u4_arg8 m c)
theorem u5_arg9 : U5 m c (Proc.devRef .tc main_arg9) = (m ((c.tc : Thread nD τ).loc main_arg9)) := (e_arg9 _).trans (u4_arg9 m c)
theorem u5_arg10 : U5 m c (Proc.devRef .tc main_arg10) = (m ((c.tc : Thread nD τ).loc main_arg10)) := (e_arg10 _).trans (u4_arg10 m c)
theorem u5_arg11 : U5 m c (Proc.devRef .tc main_arg11) = (m ((c.tc : Thread nD τ).loc main_arg11)) := (e_arg11 _).trans (u4_arg11 m c)
theorem u5_arg12 : U5 m c (Proc.devRef .tc main_arg12) = (m ((c.tc : Thread nD τ).loc main_arg12)) := (e_arg12 _).trans (u4_arg12 m c)
theorem u5_arg13 : U5 m c (Proc.devRef .tc main_arg13) = (m ((c.tc : Thread nD τ).loc main_arg13)) := (e_arg13 _).trans (u4_arg13 m c)
theorem u5_arg14 : U5 m c (Proc.devRef .tc main_arg14) = (m ((c.tc : Thread nD τ).loc main_arg14)) := (e_arg14 _).trans (u4_arg14 m c)
theorem u5_arg17 : U5 m c (Proc.devRef .tc main_arg17) = (m ((c.tc : Thread nD τ).loc main_arg17)) := (e_arg17 _).trans (u4_arg17 m c)
theorem u5_v53 : U5 m c (Proc.devRef .tc main_v53) = upd (aggOf (m ((c.tc : Thread nD τ).loc main_arg16)) (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)))) (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16))) (m ((c.tc : Thread nD τ).loc main_arg5)) (m ((c.tc : Thread nD τ).loc main_arg6)) (m ((c.tc : Thread nD τ).loc main_arg7)) := e_v53 _ _ _ _ _ _ (u4_v42 m c) (u4_v32 m c) (u4_arg5 m c) (u4_arg6 m c) (u4_arg7 m c)
theorem u6_arg9 : U6 m c (Proc.devRef .tc main_arg9) = (m ((c.tc : Thread nD τ).loc main_arg9)) := (f_arg9 _).trans (u5_arg9 m c)
theorem u6_arg10 : U6 m c (Proc.devRef .tc main_arg10) = (m ((c.tc : Thread nD τ).loc main_arg10)) := (f_arg10 _).trans (u5_arg10 m c)
theorem u6_arg11 : U6 m c (Proc.devRef .tc main_arg11) = (m ((c.tc : Thread nD τ).loc main_arg11)) := (f_arg11 _).trans (u5_arg11 m c)
theorem u6_arg12 : U6 m c (Proc.devRef .tc main_arg12) = (m ((c.tc : Thread nD τ).loc main_arg12)) := (f_arg12 _).trans (u5_arg12 m c)
theorem u6_arg13 : U6 m c (Proc.devRef .tc main_arg13) = (m ((c.tc : Thread nD τ).loc main_arg13)) := (f_arg13 _).trans (u5_arg13 m c)
theorem u6_arg14 : U6 m c (Proc.devRef .tc main_arg14) = (m ((c.tc : Thread nD τ).loc main_arg14)) := (f_arg14 _).trans (u5_arg14 m c)
theorem u6_v57 : U6 m c (Proc.devRef .tc main_v57) = poolOf (m ((c.tc : Thread nD τ).loc main_arg17)) (proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg15)) (m ((c.tc : Thread nD τ).loc main_arg16))) := f_v57 _ _ _ _ (u5_v53 m c) (u5_arg8 m c) (u5_arg17 m c)

/-- The result buffer after the 96 operations is `total` of the arguments' launch contents. -/
theorem val_eq : after (ops (F := Ideal)) (launchContents m c) (Proc.devRef .tc main_v76)
      = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [ops_cut, after_append, after_append, after_append, after_append, after_append, after_append]
  exact g_v76 _ _ _ _ _ _ _ _ (u6_v57 m c) (u6_arg9 m c) (u6_arg10 m c) (u6_arg11 m c) (u6_arg12 m c) (u6_arg13 m c) (u6_arg14 m c)

/-! ## The run -/

/-- No operation writes an argument buffer. -/
theorem kept_arg0 : after (ops (F := Ideal)) (launchContents m c) (Proc.devRef .tc main_arg0) = (m ((c.tc : Thread nD τ).loc main_arg0)) := by
  dsimp only [ops]
  after_results_simp <;> rfl

theorem kept_arg1 : after (ops (F := Ideal)) (launchContents m c) (Proc.devRef .tc main_arg1) = (m ((c.tc : Thread nD τ).loc main_arg1)) := by
  dsimp only [ops]
  after_results_simp <;> rfl

theorem kept_arg2 : after (ops (F := Ideal)) (launchContents m c) (Proc.devRef .tc main_arg2) = (m ((c.tc : Thread nD τ).loc main_arg2)) := by
  dsimp only [ops]
  after_results_simp <;> rfl

theorem kept_arg3 : after (ops (F := Ideal)) (launchContents m c) (Proc.devRef .tc main_arg3) = (m ((c.tc : Thread nD τ).loc main_arg3)) := by
  dsimp only [ops]
  after_results_simp <;> rfl

theorem kept_arg4 : after (ops (F := Ideal)) (launchContents m c) (Proc.devRef .tc main_arg4) = (m ((c.tc : Thread nD τ).loc main_arg4)) := by
  dsimp only [ops]
  after_results_simp <;> rfl

theorem kept_arg5 : after (ops (F := Ideal)) (launchContents m c) (Proc.devRef .tc main_arg5) = (m ((c.tc : Thread nD τ).loc main_arg5)) := by
  dsimp only [ops]
  after_results_simp <;> rfl

theorem kept_arg6 : after (ops (F := Ideal)) (launchContents m c) (Proc.devRef .tc main_arg6) = (m ((c.tc : Thread nD τ).loc main_arg6)) := by
  dsimp only [ops]
  after_results_simp <;> rfl

theorem kept_arg7 : after (ops (F := Ideal)) (launchContents m c) (Proc.devRef .tc main_arg7) = (m ((c.tc : Thread nD τ).loc main_arg7)) := by
  dsimp only [ops]
  after_results_simp <;> rfl

theorem kept_arg8 : after (ops (F := Ideal)) (launchContents m c) (Proc.devRef .tc main_arg8) = (m ((c.tc : Thread nD τ).loc main_arg8)) := by
  dsimp only [ops]
  after_results_simp <;> rfl

theorem kept_arg9 : after (ops (F := Ideal)) (launchContents m c) (Proc.devRef .tc main_arg9) = (m ((c.tc : Thread nD τ).loc main_arg9)) := by
  dsimp only [ops]
  after_results_simp <;> rfl

theorem kept_arg10 : after (ops (F := Ideal)) (launchContents m c) (Proc.devRef .tc main_arg10) = (m ((c.tc : Thread nD τ).loc main_arg10)) := by
  dsimp only [ops]
  after_results_simp <;> rfl

theorem kept_arg11 : after (ops (F := Ideal)) (launchContents m c) (Proc.devRef .tc main_arg11) = (m ((c.tc : Thread nD τ).loc main_arg11)) := by
  dsimp only [ops]
  after_results_simp <;> rfl

theorem kept_arg12 : after (ops (F := Ideal)) (launchContents m c) (Proc.devRef .tc main_arg12) = (m ((c.tc : Thread nD τ).loc main_arg12)) := by
  dsimp only [ops]
  after_results_simp <;> rfl

theorem kept_arg13 : after (ops (F := Ideal)) (launchContents m c) (Proc.devRef .tc main_arg13) = (m ((c.tc : Thread nD τ).loc main_arg13)) := by
  dsimp only [ops]
  after_results_simp <;> rfl

theorem kept_arg14 : after (ops (F := Ideal)) (launchContents m c) (Proc.devRef .tc main_arg14) = (m ((c.tc : Thread nD τ).loc main_arg14)) := by
  dsimp only [ops]
  after_results_simp <;> rfl

theorem kept_arg15 : after (ops (F := Ideal)) (launchContents m c) (Proc.devRef .tc main_arg15) = (m ((c.tc : Thread nD τ).loc main_arg15)) := by
  dsimp only [ops]
  after_results_simp <;> rfl

theorem kept_arg16 : after (ops (F := Ideal)) (launchContents m c) (Proc.devRef .tc main_arg16) = (m ((c.tc : Thread nD τ).loc main_arg16)) := by
  dsimp only [ops]
  after_results_simp <;> rfl

theorem kept_arg17 : after (ops (F := Ideal)) (launchContents m c) (Proc.devRef .tc main_arg17) = (m ((c.tc : Thread nD τ).loc main_arg17)) := by
  dsimp only [ops]
  after_results_simp <;> rfl

variable (ρ : Dev nD → PrngReg)

/-- Every weakly fair execution of the reference's @main terminates, nothing faulting, with the result at `total` of
    the arguments and the arguments unchanged. -/
theorem run_total : θ_run defs (onTc (τ := τ) (main (F := Ideal))) ⟨m, fun _ => 0, ρ⟩ fun r => ∀ c : Dev nD,
      r.2.mem ((c.tc : Thread nD τ).loc main_v76) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v76).trans (val_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c),
      (h c main_arg16).trans (kept_arg16 m c),
      (h c main_arg17).trans (kept_arg17 m c)⟩)
    (run_seq scopedRefs_eq scopedSems_eq defs main (fun _ => ops) main_eq (fun _ => ops_sub) m ρ)

end Cert.ReferenceIdeal.RefTotal

end
-- ==== Proof.lean ====
/-
  A two-layer graph network with a pooled read-out, three kernels on the matrix unit against plain jnp.
  Both programs compute, over the extended reals, ONE function of the eighteen arguments (Proof/Glue.lean `total`):
  the node features `h0` (the atom features joined with gathered table rows), two rounds of
  "gather at the edges' sources, add at the edges' targets" each followed by `lrelu (agg · Wl + h · Ws + b)`, a
  projection `· Wp`, a sum of the node rows per graph, and `lrelu`, two rectified affine maps and an affine map on the
  pooled rows. The gathers and the scatter-adds are the SAME host operations in both programs, so they are never opened;
  the three kernels compute the dense layers block of rows by block of rows, each row depending on that row alone, with a
  product on the matrix unit into a zero accumulator where the reference contracts on the host — the same sum
  `Σ_k x (r, k) · w (k, q)` — and with format changes that are the identity on the extended reals. No law of arithmetic
  beyond that re-indexing is used, so the precondition (finite inputs) is never opened.
  The kernel's side: Proof/KernelRun.lean (the run with the result named), Proof/Region0–2.lean (each region's result
  array as a function of the arrays the region finds), Proof/KernelTotal.lean (the fold through @main's segments).
  The reference's side: Proof/RefRun.lean (its @main as a list of operations), Proof/RefTotal.lean (its run read).
  The ideal pass rewrote nothing, so `preserves` is `True`.
-/
import proofs.«134033_j25125558682224_1_alg».proof.Defs
import proofs.«134033_j25125558682224_1_alg».proof.Proof.Gen.Kernel
import proofs.«134033_j25125558682224_1_alg».proof.Proof.Gen.Kernel.Skeleton
import proofs.«134033_j25125558682224_1_alg».proof.Proof.Gen.Kernel.Launch
import proofs.«134033_j25125558682224_1_alg».proof.Proof.Gen.Kernel.Points
import proofs.«134033_j25125558682224_1_alg».proof.Proof.Gen.Kernel.Frame
import proofs.«134033_j25125558682224_1_alg».proof.Proof.Gen.KernelIdeal
import proofs.«134033_j25125558682224_1_alg».proof.Proof.Gen.KernelIdeal.Skeleton
import proofs.«134033_j25125558682224_1_alg».proof.Proof.Gen.KernelIdeal.Launch
import proofs.«134033_j25125558682224_1_alg».proof.Proof.Gen.KernelIdeal.Points
import proofs.«134033_j25125558682224_1_alg».proof.Proof.Gen.KernelIdeal.Frame
import proofs.«134033_j25125558682224_1_alg».proof.Proof.Gen.ReferenceIdeal
import proofs.«134033_j25125558682224_1_alg».proof.Proof.Gen.Pre_finite_inputs
import proofs.«134033_j25125558682224_1_alg».proof.Proof.KernelRun
import proofs.«134033_j25125558682224_1_alg».proof.Proof.KernelTotal
import proofs.«134033_j25125558682224_1_alg».proof.Proof.RefTotal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefTotal.run_total m ρ)

theorem preserves : Cert.preserves_Kernel_KernelIdeal := trivial

/-- Both runs end with the result at `total` of the arguments, which agree. -/
theorem algebraic : Cert.algebraic_KernelIdeal_ReferenceIdeal := by
  intro m ρ m' ρ' _ hagree
  refine ⟨fun c => Cert.ReferenceIdeal.Glue.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Total.w6_v42 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RefTotal.run_total m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
